-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v102)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v102) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x256 : Shape := ⟨2, ![200000, 256]⟩
abbrev S100000x3 : Shape := ⟨2, ![100000, 3]⟩
abbrev S200000x3 : Shape := ⟨2, ![200000, 3]⟩
abbrev S2x600000 : Shape := ⟨2, ![2, 600000]⟩
abbrev S265x256 : Shape := ⟨2, ![265, 256]⟩
abbrev S256 : Shape := ⟨1, ![256]⟩
abbrev S256x256 : Shape := ⟨2, ![256, 256]⟩
abbrev S_ : Shape := ⟨0, ![]⟩

class Facts : Prop where
  bcast_S_S200000x256 : S_.BroadcastsInDim S200000x256 (![] : Fin 0 → Fin S200000x256.rank)
  reducesTo_S200000x256_S_d0_1 : S200000x256.ReducesTo [0, 1] S_
  h_S_ : 0 < S_.numel
  bcast_S_S100000x3 : S_.BroadcastsInDim S100000x3 (![] : Fin 0 → Fin S100000x3.rank)
  reducesTo_S100000x3_S_d0_1 : S100000x3.ReducesTo [0, 1] S_
  bcast_S_S265x256 : S_.BroadcastsInDim S265x256 (![] : Fin 0 → Fin S265x256.rank)
  reducesTo_S265x256_S_d0_1 : S265x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_arg6 : FVec F S256x256 .f32) (main_arg7 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg6
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  main_v28

def fn {F : FTy → Type} [FloatOps F] (main_arg0 : FVec F S200000x256 .f32) (main_arg1 : FVec F S100000x3 .f32) (main_arg2 : IVec S200000x3 32) (main_arg3 : IVec S2x600000 32) (main_arg4 : FVec F S265x256 .f32) (main_arg5 : FVec F S256 .f32) (main_arg6 : FVec F S256x256 .f32) (main_arg7 : FVec F S256 .f32) : IVec S_ 1 :=
  let main_v0 : FVec F S200000x256 .f32 := Host.absf main_arg0
  let main_cst : FVec F S_ .f32 := constant S_ .f32 0x7F800000#32
  let main_v1 : FVec F S200000x256 .f32 := broadcastInDim S200000x256 ![] bcast_S_S200000x256 main_cst
  let main_v2 : IVec S200000x256 1 := cmpf .olt main_v0 main_v1
  let main_c : IVec S_ 1 := constantI S_ 1 1#1
  let main_v3 : IVec S_ 1 := (fun x v => Host.reduce IntOp.andi x v reducesTo_S200000x256_S_d0_1 h_S_) main_v2 main_c
  let main_v4 : FVec F S100000x3 .f32 := Host.absf main_arg1
  let main_cst_0 : FVec F S_ .f32 := constant S_ .f32 0x7F800000#32
  let main_v5 : FVec F S100000x3 .f32 := broadcastInDim S100000x3 ![] bcast_S_S100000x3 main_cst_0
  let main_v6 : IVec S100000x3 1 := cmpf .olt main_v4 main_v5
  let main_c_1 : IVec S_ 1 := constantI S_ 1 1#1
  let main_v7 : IVec S_ 1 := (fun x v => Host.reduce IntOp.andi x v reducesTo_S100000x3_S_d0_1 h_S_) main_v6 main_c_1
  let main_v8 : IVec S_ 1 := andi main_v3 main_v7
  let main_v9 : FVec F S265x256 .f32 := Host.absf main_arg4
  let main_cst_2 : FVec F S_ .f32 := constant S_ .f32 0x7F800000#32
  let main_v10 : FVec F S265x256 .f32 := broadcastInDim S265x256 ![] bcast_S_S265x256 main_cst_2
  let main_v11 : IVec S265x256 1 := cmpf .olt main_v9 main_v10
  let main_c_3 : IVec S_ 1 := constantI S_ 1 1#1
  let main_v12 : IVec S_ 1 := (fun x v => Host.reduce IntOp.andi x v reducesTo_S265x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_v13 main_v16
-- ==== Kernel.lean ====
abbrev S200000x256 : Shape := ⟨2, ![200000, 256]⟩
abbrev S100000x3 : Shape := ⟨2, ![100000, 3]⟩
abbrev S200000x3 : Shape := ⟨2, ![200000, 3]⟩
abbrev S2x600000 : Shape := ⟨2, ![2, 600000]⟩
abbrev S265x256 : Shape := ⟨2, ![265, 256]⟩
abbrev S256 : Shape := ⟨1, ![256]⟩
abbrev S256x256 : Shape := ⟨2, ![256, 256]⟩
abbrev S1x600000 : Shape := ⟨2, ![1, 600000]⟩
abbrev S600000 : Shape := ⟨1, ![600000]⟩
abbrev S_ : Shape := ⟨0, ![]⟩
abbrev S200000x3x1 : Shape := ⟨3, ![200000, 3, 1]⟩
abbrev S200000x3x3 : Shape := ⟨3, ![200000, 3, 3]⟩
abbrev S200000x1x3 : Shape := ⟨3, ![200000, 1, 3]⟩
abbrev S600000x1 : Shape := ⟨2, ![600000, 1]⟩
abbrev S600000x3 : Shape := ⟨2, ![600000, 3]⟩
abbrev S600000x9 : Shape := ⟨2, ![600000, 9]⟩
abbrev S600000x256 : Shape := ⟨2, ![600000, 256]⟩
abbrev S600000x265 : Shape := ⟨2, ![600000, 265]⟩
abbrev S1x256 : Shape := ⟨2, ![1, 256]⟩
abbrev S4000x265 : Shape := ⟨2, ![4000, 265]⟩
abbrev S4000x256 : Shape := ⟨2, ![4000, 256]⟩

abbrev nBuf : Space → Nat
  | .hbm => 134
  | .vmem => 8
  | .smem => 0
  | _ => 0

abbrev hbmTy0_0 (i : Nat) : BufTy := match i % 128 with
  | 0 => ⟨S200000x256, .f32⟩
  | 1 => ⟨S100000x3, .f32⟩
  | 2 => ⟨S200000x3, .i32⟩
  | 3 => ⟨S2x600000, .i32⟩
  | 4 => ⟨S265x256, .f32⟩
  | 5 => ⟨S256, .f32⟩
  | 6 => ⟨S256x256, .f32⟩
  | 7 => ⟨S256, .f32⟩
  | 8 => ⟨S1x600000, .i32⟩
  | 9 => ⟨S600000, .i32⟩
  | 10 => ⟨S1x600000, .i32⟩
  | 11 => ⟨S600000, .i32⟩
  | 12 => ⟨S_, .i32⟩
  | 13 => ⟨S200000x3, .i32⟩
  | 14 => ⟨S200000x3, .i1⟩
  | 15 => ⟨S_, .i32⟩
  | 16 => ⟨S200000x3, .i32⟩
  | 17 => ⟨S200000x3, .i32⟩
  | 18 => ⟨S200000x3, .i32⟩
  | 19 => ⟨S200000x3x1, .i32⟩
  | 20 => ⟨S200000x3x3, .f32⟩
  | 21 => ⟨S200000x1x3, .f32⟩
  | 22 => ⟨S200000x3, .f32⟩
  | 23 => ⟨S200000x1x3, .f32⟩
  | 24 => ⟨S200000x3, .f32⟩
  | 25 => ⟨S200000x3, .f32⟩
  | 26 => ⟨S200000x1x3, .f32⟩
  | 27 => ⟨S200000x3, .f32⟩
  | 28 => ⟨S200000x1x3, .f32⟩
  | 29 => ⟨S200000x3, .f32⟩
  | 30 => ⟨S200000x3, .f32⟩
  | 31 => ⟨S200000x1x3, .f32⟩
  | 32 => ⟨S200000x3, .f32⟩
  | 33 => ⟨S200000x1x3, .f32⟩
  | 34 => ⟨S200000x3, .f32⟩
  | 35 => ⟨S200000x3, .f32⟩
  | 36 => ⟨S200000x1x3, .f32⟩
  | 37 => ⟨S200000x1x3, .f32⟩
  | 38 => ⟨S200000x1x3, .f32⟩
  | 39 => ⟨S200000x3x3, .f32⟩
  | 40 => ⟨S_, .f32⟩
  | 41 => ⟨S200000x3, .f32⟩
  | 42 => ⟨S_, .f32⟩
  | 43 => ⟨S200000x3, .f32⟩
  | 44 => ⟨S_, .f32⟩
  | 45 => ⟨S200000x3, .f32⟩
  | 46 => ⟨S_, .f32⟩
  | 47 => ⟨S200000x3, .f32⟩
  | 48 => ⟨S200000x3, .f32⟩
  | 49 => ⟨S_, .i32⟩
  | 50 => ⟨S600000, .i32⟩
  | 51 => ⟨S600000, .i1⟩
  | 52 => ⟨S_, .i32⟩
  | 53 => ⟨S600000, .i32⟩
  | 54 => ⟨S600000, .i32⟩
  | 55 => ⟨S600000, .i32⟩
  | 56 => ⟨S600000x1, .i32⟩
  | 57 => ⟨S600000x3, .f32⟩
  | 58 => ⟨S_, .i32⟩
  | 59 => ⟨S600000, .i32⟩
  | 60 => ⟨S600000, .i1⟩
  | 61 => ⟨S_, .i32⟩
  | 62 => ⟨S600000, .i32⟩
  | 63 => ⟨S600000, .i32⟩
  | 64 => ⟨S600000, .i32⟩
  | 65 => ⟨S600000x1, .i32⟩
  | 66 => ⟨S600000x3, .f32⟩
  | 67 => ⟨S600000x3, .f32⟩
  | 68 => ⟨S_, .i32⟩
  | 69 => ⟨S600000, .i32⟩
  | 70 => ⟨S600000, .i1⟩
  | 71 => ⟨S_, .i32⟩
  | 72 => ⟨S600000, .i32⟩
  | 73 => ⟨S600000, .i32⟩
  | 74 => ⟨S600000, .i32⟩
  | 75 => ⟨S600000x1, .i32⟩
  | 76 => ⟨S600000x3, .f32⟩
  | 77 => ⟨S_, .i32⟩
  | 78 => ⟨S600000, .i32⟩
  | 79 => ⟨S600000, .i1⟩
  | 80 => ⟨S_, .i32⟩
  | 81 => ⟨S600000, .i32⟩
  | 82 => ⟨S600000, .i32⟩
  | 83 => ⟨S600000, .i32⟩
  | 84 => ⟨S600000x1, .i32⟩
  | 85 => ⟨S600000x3, .f32⟩
  | 86 => ⟨S600000x3, .f32⟩
  | 87 => ⟨S_, .i32⟩
  | 88 => ⟨S600000, .i32⟩
  | 89 => ⟨S600000, .i1⟩
  | 90 => ⟨S_, .i32⟩
  | 91 => ⟨S600000, .i32⟩
  | 92 => ⟨S600000, .i32⟩
  | 93 => ⟨S600000, .i32⟩
  | 94 => ⟨S600000x1, .i32⟩
  | 95 => ⟨S600000x3, .f32⟩
  | 96 => ⟨S_, .i32⟩
  | 97 => ⟨S600000, .i32⟩
  | 98 => ⟨S600000, .i1⟩
  | 99 => ⟨S_, .i32⟩
  | 100 => ⟨S600000, .i32⟩
  | 101 => ⟨S600000, .i32⟩
  | 102 => ⟨S600000, .i32⟩
  | 103 => ⟨S600000x1, .i32⟩
  | 104 => ⟨S600000x3, .f32⟩
  | 105 => ⟨S600000x3, .f32⟩
  | 106 => ⟨S600000x9, .f32⟩
  | 107 => ⟨S_, .i32⟩
  | 108 => ⟨S600000, .i32⟩
  | 109 => ⟨S600000, .i1⟩
  | 110 => ⟨S_, .i32⟩
  | 111 => ⟨S600000, .i32⟩
  | 112 => ⟨S600000, .i32⟩
  | 113 => ⟨S600000, .i32⟩
  | 114 => ⟨S600000x1, .i32⟩
  | 115 => ⟨S600000x256, .f32⟩
  | 116 => ⟨S_, .i32⟩
  | 117 => ⟨S600000, .i32⟩
  | 118 => ⟨S600000, .i1⟩
  | 119 => ⟨S_, .i32⟩
  | 120 => ⟨S600000, .i32⟩
  | 121 => ⟨S600000, .i32⟩
  | 122 => ⟨S600000, .i32⟩
  | 123 => ⟨S600000x1, .i32⟩
  | 124 => ⟨S600000x256, .f32⟩
  | 125 => ⟨S600000x256, .f32⟩
  | 126 => ⟨S600000x265, .f32⟩
  | 127 => ⟨S1x256, .f32⟩
  | _ => ⟨S200000x256, .f32⟩

abbrev hbmTy0_1 (i : Nat) : BufTy := match i % 128 with
  | 0 => ⟨S1x256, .f32⟩
  | 1 => ⟨S600000x256, .f32⟩
  | 2 => ⟨S_, .f32⟩
  | 3 => ⟨S200000x256, .f32⟩
  | 4 => ⟨S600000x1, .i32⟩
  | 5 => ⟨S200000x256, .f32⟩
  | _ => ⟨S200000x256, .f32⟩

abbrev hbmTy (i : Nat) : BufTy := match i / 128 with
  | 0 => hbmTy0_0 i
  | 1 => hbmTy0_1 i
  | _ => ⟨S200000x256, .f32⟩

abbrev bufTy : (tb : Table) → Fin (tcTables nBuf tb) → BufTy
  | .hbm, ⟨i, _⟩ => hbmTy i
  | .local _ .vmem, ⟨0, _⟩ => ⟨S4000x265, .f32⟩
  | .local _ .vmem, ⟨1, _⟩ => ⟨S4000x265, .f32⟩
  | .local _ .vmem, ⟨2, _⟩ => ⟨S265x256, .f32⟩
  | .local _ .vmem, ⟨3, _⟩ => ⟨S1x256, .f32⟩
  | .local _ .vmem, ⟨4, _⟩ => ⟨S256x256, .f32⟩
  | .local _ .vmem, ⟨5, _⟩ => ⟨S1x256, .f32⟩
  | .local _ .vmem, ⟨6, _⟩ => ⟨S4000x256, .f32⟩
  | .local _ .vmem, ⟨7, _⟩ => ⟨S4000x256, .f32⟩
  | _, _ => ⟨S200000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst : Ref sig .tc := ⟨.hbm, 40, rfl⟩
abbrev main_v30 : Ref sig .tc := ⟨.hbm, 41, rfl⟩
abbrev main_cst_1 : Ref sig .tc := ⟨.hbm, 42, rfl⟩
abbrev main_v31 : Ref sig .tc := ⟨.hbm, 43, rfl⟩
abbrev main_cst_2 : Ref sig .tc := ⟨.hbm, 44, rfl⟩
abbrev main_v32 : Ref sig .tc := ⟨.hbm, 45, rfl⟩
abbrev main_cst_3 : Ref sig .tc := ⟨.hbm, 46, rfl⟩
abbrev main_v33 : Ref sig .tc := ⟨.hbm, 47, rfl⟩
abbrev main_v34 : Ref sig .tc := ⟨.hbm, 48, rfl⟩
abbrev main_c_4 : Ref sig .tc := ⟨.hbm, 49, rfl⟩
abbrev main_v35 : Ref sig .tc := ⟨.hbm, 50, rfl⟩
abbrev main_v36 : Ref sig .tc := ⟨.hbm, 51, rfl⟩
abbrev main_c_5 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_c_6 : Ref sig .tc := ⟨.hbm, 58, rfl⟩
abbrev main_v42 : Ref sig .tc := ⟨.hbm, 59, rfl⟩
abbrev main_v43 : Ref sig .tc := ⟨.hbm, 60, rfl⟩
abbrev main_c_7 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_c_8 : Ref sig .tc := ⟨.hbm, 68, rfl⟩
abbrev main_v50 : Ref sig .tc := ⟨.hbm, 69, rfl⟩
abbrev main_v51 : Ref sig .tc := ⟨.hbm, 70, rfl⟩
abbrev main_c_9 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_c_10 : Ref sig .tc := ⟨.hbm, 77, rfl⟩
abbrev main_v57 : Ref sig .tc := ⟨.hbm, 78, rfl⟩
abbrev main_v58 : Ref sig .tc := ⟨.hbm, 79, rfl⟩
abbrev main_c_11 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_c_12 : Ref sig .tc := ⟨.hbm, 87, rfl⟩
abbrev main_v65 : Ref sig .tc := ⟨.hbm, 88, rfl⟩
abbrev main_v66 : Ref sig .tc := ⟨.hbm, 89, rfl⟩
abbrev main_c_13 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_c_14 : Ref sig .tc := ⟨.hbm, 96, rfl⟩
abbrev main_v72 : Ref sig .tc := ⟨.hbm, 97, rfl⟩
abbrev main_v73 : Ref sig .tc := ⟨.hbm, 98, rfl⟩
abbrev main_c_15 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_c_16 : Ref sig .tc := ⟨.hbm, 107, rfl⟩
abbrev main_v81 : Ref sig .tc := ⟨.hbm, 108, rfl⟩
abbrev main_v82 : Ref sig .tc := ⟨.hbm, 109, rfl⟩
abbrev main_c_17 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_c_18 : Ref sig .tc := ⟨.hbm, 116, rfl⟩
abbrev main_v88 : Ref sig .tc := ⟨.hbm, 117, rfl⟩
abbrev main_v89 : Ref sig .tc := ⟨.hbm, 118, rfl⟩
abbrev main_c_19 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_cst_20 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![150], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x265 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S265x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S200000x3 : S_.BroadcastsInDim S200000x3 (![] : Fin 0 → Fin S200000x3.rank)
  bcast_S200000x3_S200000x3x1_0_1 : S200000x3.BroadcastsInDim S200000x3x1 (![0, 1] : Fin 2 → Fin S200000x3x1.rank)
  slices_S200000x3x3_S200000x1x3_0_0_0 : S200000x3x3.Slices ![0, 0, 0] S200000x1x3
  shapeCasts_S200000x1x3_S200000x3 : S200000x1x3.ShapeCasts S200000x3
  slices_S200000x3x3_S200000x1x3_0_1_0 : S200000x3x3.Slices ![0, 1, 0] S200000x1x3
  slices_S200000x3x3_S200000x1x3_0_2_0 : S200000x3x3.Slices ![0, 2, 0] S200000x1x3
  bcast_S200000x3_S200000x1x3_0_2 : S200000x3.BroadcastsInDim S200000x1x3 (![0, 2] : Fin 2 → Fin S200000x1x3.rank)
  concatenates_S200000x1x3_S200000x1x3_S200000x1x3_S200000x3x3_d1 : Shape.Concatenates [S200000x1x3, S200000x1x3, S200000x1x3] S200000x3x3 1
  reducesTo_S200000x3x3_S200000x3_d1 : S200000x3x3.ReducesTo [1] S200000x3
  h_S_ : 0 < S_.numel
  bcast_S_S600000 : S_.BroadcastsInDim S600000 (![] : Fin 0 → Fin S600000.rank)
  bcast_S600000_S600000x1_0 : S600000.BroadcastsInDim S600000x1 (![0] : Fin 1 → Fin S600000x1.rank)
  concatenates_S600000x3_S600000x3_S600000x3_S600000x9_d1 : Shape.Concatenates [S600000x3, S600000x3, S600000x3] S600000x9 1
  concatenates_S600000x9_S600000x256_S600000x265_d1 : Shape.Concatenates [S600000x9, S600000x256] S600000x265 1
  shapeCasts_S256_S1x256 : S256.ShapeCasts S1x256
  inb_S4000x265_S4000x265_0_0 : ∀ a, (![0, 0] : Fin 2 → Nat) a + S4000x265.size a ≤ S4000x265.size a
  h_S4000x265 : 0 < S4000x265.numel
  shapeCasts_S4000x265_S4000x265 : S4000x265.ShapeCasts S4000x265
  bitsLt_bf16_f32 : FTy.bits .bf16 < FTy.bits .f32
  inb_S265x256_S265x256_0_0 : ∀ a, (![0, 0] : Fin 2 → Nat) a + S265x256.size a ≤ S265x256.size a
  h_S265x256 : 0 < S265x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  inb_S256x256_S256x256_0_0 : ∀ a, (![0, 0] : Fin 2 → Nat) a + S256x256.size a ≤ S256x256.size a
  h_S256x256 : 0 < S256x256.numel
  inb_S4000x256_S4000x256_0_0 : ∀ a, (![0, 0] : Fin 2 → Nat) a + S4000x256.size a ≤ S4000x256.size a
  h_S4000x256 : 0 < S4000x256.numel
  bcast_S_S200000x256 : S_.BroadcastsInDim S200000x256 (![] : Fin 0 → Fin S200000x256.rank)
  gather_S100000x3_S200000x3x1_S200000x3x3_2_0_n_n_0_2_13_wf : GatherDims.WF S100000x3 S200000x3x1 S200000x3x3 [2] [0] [] [0] [] 2 ![1, 3]
  gather_S200000x3_S600000x1_S600000x3_1_0_n_n_0_1_13_wf : GatherDims.WF S200000x3 S600000x1 S600000x3 [1] [0] [] [0] [] 1 ![1, 3]
  gather_S200000x256_S600000x1_S600000x256_1_0_n_n_0_1_1256_wf : GatherDims.WF S200000x256 S600000x1 S600000x256 [1] [0] [] [0] [] 1 ![1, 256]
  dot_S4000x265_S265x256_S4000x256_1_0_0_1_n_n_wf : DotDims.WF S4000x265 S265x256 S4000x256 [1] [0] [0] [1] [] []
  dot_S4000x256_S256x256_S4000x256_1_0_0_1_n_n_wf : DotDims.WF S4000x256 S256x256 S4000x256 [1] [0] [0] [1] [] []
  scatter_S200000x256_S600000x1_S600000x256_1_0_0_1_wf : ScatterDims.WF S200000x256 S600000x1 S600000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x265.size a ≤ S600000x265.size a
  hwx0_0 : ∀ i : grid0.Coords, EltTy.bits .f32 = 32 ∨ (Rect.block (s := S600000x265) S4000x265.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S265x256.size a ≤ S265x256.size a
  hwx0_1 : ∀ i : grid0.Coords, EltTy.bits .f32 = 32 ∨ (Rect.block (s := S265x256) S265x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x256.size a ≤ S600000x256.size a
  hwx0_5 : ∀ i : grid0.Coords, EltTy.bits .f32 = 32 ∨ (Rect.block (s := S600000x256) S4000x256.size (cc0_transform_5 i) (hinb0_5 i)).WholeWords (EltTy.packing .f32)

variable [Facts₀]

def gather_S100000x3_S200000x3x1_S200000x3x3_2_0_n_n_0_2_13 : GatherDims S100000x3 S200000x3x1 S200000x3x3 where
  offsetDims := [2]
  collapsedSliceDims := [0]
  operandBatchingDims := []
  startIndicesBatchingDims := []
  startIndexMap := [0]
  indexVectorDim := 2
  sliceSizes := ![1, 3]
  wf := gather_S100000x3_S200000x3x1_S200000x3x3_2_0_n_n_0_2_13_wf
def gather_S200000x3_S600000x1_S600000x3_1_0_n_n_0_1_13 : GatherDims S200000x3 S600000x1 S600000x3 where
  offsetDims := [1]
  collapsedSliceDims := [0]
  operandBatchingDims := []
  startIndicesBatchingDims := []
  startIndexMap := [0]
  indexVectorDim := 1
  sliceSizes := ![1, 3]
  wf := gather_S200000x3_S600000x1_S600000x3_1_0_n_n_0_1_13_wf
def gather_S200000x256_S600000x1_S600000x256_1_0_n_n_0_1_1256 : GatherDims S200000x256 S600000x1 S600000x256 where
  offsetDims := [1]
  collapsedSliceDims := [0]
  operandBatchingDims := []
  startIndicesBatchingDims := []
  startIndexMap := [0]
  indexVectorDim := 1
  sliceSizes := ![1, 256]
  wf := gather_S200000x256_S600000x1_S600000x256_1_0_n_n_0_1_1256_wf
def dot_S4000x265_S265x256_S4000x256_1_0_0_1_n_n : DotDims S4000x265 S265x256 S4000x256 where
  lhsContracting := [1]
  rhsContracting := [0]
  lhsNonContracting := [0]
  rhsNonContracting := [1]
  lhsBatch := []
  rhsBatch := []
  wf := dot_S4000x265_S265x256_S4000x256_1_0_0_1_n_n_wf
def dot_S4000x256_S256x256_S4000x256_1_0_0_1_n_n : DotDims S4000x256 S256x256 S4000x256 where
  lhsContracting := [1]
  rhsContracting := [0]
  lhsNonContracting := [0]
  rhsNonContracting := [1]
  lhsBatch := []
  rhsBatch := []
  wf := dot_S4000x256_S256x256_S4000x256_1_0_0_1_n_n_wf
def scatter_S200000x256_S600000x1_S600000x256_1_0_0_1 : ScatterDims S200000x256 S600000x1 S600000x256 where
  updateWindowDims := [1]
  insertedWindowDims := [0]
  scatterDimsToOperandDims := [0]
  indexVectorDim := 1
  wf := scatter_S200000x256_S600000x1_S600000x256_1_0_0_1_wf

abbrev win0_0 : Pipeline.Window sig grid0 :=
  Pipeline.Window.ofSpec (Memref.whole main_v96) S4000x265.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S265x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v97) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v98) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v99) S4000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S200000x256 : Shape := ⟨2, ![200000, 256]⟩
abbrev S100000x3 : Shape := ⟨2, ![100000, 3]⟩
abbrev S200000x3 : Shape := ⟨2, ![200000, 3]⟩
abbrev S2x600000 : Shape := ⟨2, ![2, 600000]⟩
abbrev S265x256 : Shape := ⟨2, ![265, 256]⟩
abbrev S256 : Shape := ⟨1, ![256]⟩
abbrev S256x256 : Shape := ⟨2, ![256, 256]⟩
abbrev S_ : Shape := ⟨0, ![]⟩
abbrev S200000x3x1 : Shape := ⟨3, ![200000, 3, 1]⟩
abbrev S200000x3x3 : Shape := ⟨3, ![200000, 3, 3]⟩
abbrev S200000x1x3 : Shape := ⟨3, ![200000, 1, 3]⟩
abbrev S1x600000 : Shape := ⟨2, ![1, 600000]⟩
abbrev S600000 : Shape := ⟨1, ![600000]⟩
abbrev S600000x1 : Shape := ⟨2, ![600000, 1]⟩
abbrev S600000x3 : Shape := ⟨2, ![600000, 3]⟩
abbrev S600000x9 : Shape := ⟨2, ![600000, 9]⟩
abbrev S600000x256 : Shape := ⟨2, ![600000, 256]⟩
abbrev S600000x265 : Shape := ⟨2, ![600000, 265]⟩
abbrev S1x256 : Shape := ⟨2, ![1, 256]⟩

abbrev nBuf : Space → Nat
  | .hbm => 142
  | .vmem => 0
  | .smem => 0
  | _ => 0

abbrev hbmTy0_0 (i : Nat) : BufTy := match i % 128 with
  | 0 => ⟨S200000x256, .f32⟩
  | 1 => ⟨S100000x3, .f32⟩
  | 2 => ⟨S200000x3, .i32⟩
  | 3 => ⟨S2x600000, .i32⟩
  | 4 => ⟨S265x256, .f32⟩
  | 5 => ⟨S256, .f32⟩
  | 6 => ⟨S256x256, .f32⟩
  | 7 => ⟨S256, .f32⟩
  | 8 => ⟨S_, .i32⟩
  | 9 => ⟨S200000x3, .i32⟩
  | 10 => ⟨S200000x3, .i1⟩
  | 11 => ⟨S_, .i32⟩
  | 12 => ⟨S200000x3, .i32⟩
  | 13 => ⟨S200000x3, .i32⟩
  | 14 => ⟨S200000x3, .i32⟩
  | 15 => ⟨S200000x3x1, .i32⟩
  | 16 => ⟨S200000x3x3, .f32⟩
  | 17 => ⟨S200000x1x3, .f32⟩
  | 18 => ⟨S200000x3, .f32⟩
  | 19 => ⟨S200000x1x3, .f32⟩
  | 20 => ⟨S200000x3, .f32⟩
  | 21 => ⟨S200000x3, .f32⟩
  | 22 => ⟨S200000x1x3, .f32⟩
  | 23 => ⟨S200000x3, .f32⟩
  | 24 => ⟨S200000x1x3, .f32⟩
  | 25 => ⟨S200000x3, .f32⟩
  | 26 => ⟨S200000x3, .f32⟩
  | 27 => ⟨S200000x1x3, .f32⟩
  | 28 => ⟨S200000x3, .f32⟩
  | 29 => ⟨S200000x1x3, .f32⟩
  | 30 => ⟨S200000x3, .f32⟩
  | 31 => ⟨S200000x3, .f32⟩
  | 32 => ⟨S200000x1x3, .f32⟩
  | 33 => ⟨S200000x1x3, .f32⟩
  | 34 => ⟨S200000x1x3, .f32⟩
  | 35 => ⟨S200000x3x3, .f32⟩
  | 36 => ⟨S_, .f32⟩
  | 37 => ⟨S200000x3, .f32⟩
  | 38 => ⟨S_, .f32⟩
  | 39 => ⟨S200000x3, .f32⟩
  | 40 => ⟨S_, .f32⟩
  | 41 => ⟨S200000x3, .f32⟩
  | 42 => ⟨S_, .f32⟩
  | 43 => ⟨S200000x3, .f32⟩
  | 44 => ⟨S200000x3, .f32⟩
  | 45 => ⟨S1x600000, .i32⟩
  | 46 => ⟨S600000, .i32⟩
  | 47 => ⟨S1x600000, .i32⟩
  | 48 => ⟨S600000, .i32⟩
  | 49 => ⟨S_, .i32⟩
  | 50 => ⟨S600000, .i32⟩
  | 51 => ⟨S600000, .i1⟩
  | 52 => ⟨S_, .i32⟩
  | 53 => ⟨S600000, .i32⟩
  | 54 => ⟨S600000, .i32⟩
  | 55 => ⟨S600000, .i32⟩
  | 56 => ⟨S600000x1, .i32⟩
  | 57 => ⟨S600000x3, .f32⟩
  | 58 => ⟨S_, .i32⟩
  | 59 => ⟨S600000, .i32⟩
  | 60 => ⟨S600000, .i1⟩
  | 61 => ⟨S_, .i32⟩
  | 62 => ⟨S600000, .i32⟩
  | 63 => ⟨S600000, .i32⟩
  | 64 => ⟨S600000, .i32⟩
  | 65 => ⟨S600000x1, .i32⟩
  | 66 => ⟨S600000x3, .f32⟩
  | 67 => ⟨S600000x3, .f32⟩
  | 68 => ⟨S_, .i32⟩
  | 69 => ⟨S600000, .i32⟩
  | 70 => ⟨S600000, .i1⟩
  | 71 => ⟨S_, .i32⟩
  | 72 => ⟨S600000, .i32⟩
  | 73 => ⟨S600000, .i32⟩
  | 74 => ⟨S600000, .i32⟩
  | 75 => ⟨S600000x1, .i32⟩
  | 76 => ⟨S600000x3, .f32⟩
  | 77 => ⟨S_, .i32⟩
  | 78 => ⟨S600000, .i32⟩
  | 79 => ⟨S600000, .i1⟩
  | 80 => ⟨S_, .i32⟩
  | 81 => ⟨S600000, .i32⟩
  | 82 => ⟨S600000, .i32⟩
  | 83 => ⟨S600000, .i32⟩
  | 84 => ⟨S600000x1, .i32⟩
  | 85 => ⟨S600000x3, .f32⟩
  | 86 => ⟨S600000x3, .f32⟩
  | 87 => ⟨S_, .i32⟩
  | 88 => ⟨S600000, .i32⟩
  | 89 => ⟨S600000, .i1⟩
  | 90 => ⟨S_, .i32⟩
  | 91 => ⟨S600000, .i32⟩
  | 92 => ⟨S600000, .i32⟩
  | 93 => ⟨S600000, .i32⟩
  | 94 => ⟨S600000x1, .i32⟩
  | 95 => ⟨S600000x3, .f32⟩
  | 96 => ⟨S_, .i32⟩
  | 97 => ⟨S600000, .i32⟩
  | 98 => ⟨S600000, .i1⟩
  | 99 => ⟨S_, .i32⟩
  | 100 => ⟨S600000, .i32⟩
  | 101 => ⟨S600000, .i32⟩
  | 102 => ⟨S600000, .i32⟩
  | 103 => ⟨S600000x1, .i32⟩
  | 104 => ⟨S600000x3, .f32⟩
  | 105 => ⟨S600000x3, .f32⟩
  | 106 => ⟨S600000x9, .f32⟩
  | 107 => ⟨S_, .i32⟩
  | 108 => ⟨S600000, .i32⟩
  | 109 => ⟨S600000, .i1⟩
  | 110 => ⟨S_, .i32⟩
  | 111 => ⟨S600000, .i32⟩
  | 112 => ⟨S600000, .i32⟩
  | 113 => ⟨S600000, .i32⟩
  | 114 => ⟨S600000x1, .i32⟩
  | 115 => ⟨S600000x256, .f32⟩
  | 116 => ⟨S_, .i32⟩
  | 117 => ⟨S600000, .i32⟩
  | 118 => ⟨S600000, .i1⟩
  | 119 => ⟨S_, .i32⟩
  | 120 => ⟨S600000, .i32⟩
  | 121 => ⟨S600000, .i32⟩
  | 122 => ⟨S600000, .i32⟩
  | 123 => ⟨S600000x1, .i32⟩
  | 124 => ⟨S600000x256, .f32⟩
  | 125 => ⟨S600000x256, .f32⟩
  | 126 => ⟨S600000x265, .f32⟩
  | 127 => ⟨S600000x256, .f32⟩
  | _ => ⟨S200000x256, .f32⟩

abbrev hbmTy0_1 (i : Nat) : BufTy := match i % 128 with
  | 0 => ⟨S1x256, .f32⟩
  | 1 => ⟨S600000x256, .f32⟩
  | 2 => ⟨S600000x256, .f32⟩
  | 3 => ⟨S_, .f32⟩
  | 4 => ⟨S600000x256, .f32⟩
  | 5 => ⟨S600000x256, .f32⟩
  | 6 => ⟨S600000x256, .f32⟩
  | 7 => ⟨S1x256, .f32⟩
  | 8 => ⟨S600000x256, .f32⟩
  | 9 => ⟨S600000x256, .f32⟩
  | 10 => ⟨S_, .f32⟩
  | 11 => ⟨S200000x256, .f32⟩
  | 12 => ⟨S600000x1, .i32⟩
  | 13 => ⟨S200000x256, .f32⟩
  | _ => ⟨S200000x256, .f32⟩

abbrev hbmTy (i : Nat) : BufTy := match i / 128 with
  | 0 => hbmTy0_0 i
  | 1 => hbmTy0_1 i
  | _ => ⟨S200000x256, .f32⟩

abbrev bufTy : (tb : Table) → Fin (tcTables nBuf tb) → BufTy
  | .hbm, ⟨i, _⟩ => hbmTy i
  | _, _ => ⟨S200000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst : Ref sig .tc := ⟨.hbm, 36, rfl⟩
abbrev main_v26 : Ref sig .tc := ⟨.hbm, 37, rfl⟩
abbrev main_cst_1 : Ref sig .tc := ⟨.hbm, 38, rfl⟩
abbrev main_v27 : Ref sig .tc := ⟨.hbm, 39, rfl⟩
abbrev main_cst_2 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c_4 : Ref sig .tc := ⟨.hbm, 49, rfl⟩
abbrev main_v35 : Ref sig .tc := ⟨.hbm, 50, rfl⟩
abbrev main_v36 : Ref sig .tc := ⟨.hbm, 51, rfl⟩
abbrev main_c_5 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_c_6 : Ref sig .tc := ⟨.hbm, 58, rfl⟩
abbrev main_v42 : Ref sig .tc := ⟨.hbm, 59, rfl⟩
abbrev main_v43 : Ref sig .tc := ⟨.hbm, 60, rfl⟩
abbrev main_c_7 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_c_8 : Ref sig .tc := ⟨.hbm, 68, rfl⟩
abbrev main_v50 : Ref sig .tc := ⟨.hbm, 69, rfl⟩
abbrev main_v51 : Ref sig .tc := ⟨.hbm, 70, rfl⟩
abbrev main_c_9 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_c_10 : Ref sig .tc := ⟨.hbm, 77, rfl⟩
abbrev main_v57 : Ref sig .tc := ⟨.hbm, 78, rfl⟩
abbrev main_v58 : Ref sig .tc := ⟨.hbm, 79, rfl⟩
abbrev main_c_11 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_c_12 : Ref sig .tc := ⟨.hbm, 87, rfl⟩
abbrev main_v65 : Ref sig .tc := ⟨.hbm, 88, rfl⟩
abbrev main_v66 : Ref sig .tc := ⟨.hbm, 89, rfl⟩
abbrev main_c_13 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_c_14 : Ref sig .tc := ⟨.hbm, 96, rfl⟩
abbrev main_v72 : Ref sig .tc := ⟨.hbm, 97, rfl⟩
abbrev main_v73 : Ref sig .tc := ⟨.hbm, 98, rfl⟩
abbrev main_c_15 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_c_16 : Ref sig .tc := ⟨.hbm, 107, rfl⟩
abbrev main_v81 : Ref sig .tc := ⟨.hbm, 108, rfl⟩
abbrev main_v82 : Ref sig .tc := ⟨.hbm, 109, rfl⟩
abbrev main_c_17 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_c_18 : Ref sig .tc := ⟨.hbm, 116, rfl⟩
abbrev main_v88 : Ref sig .tc := ⟨.hbm, 117, rfl⟩
abbrev main_v89 : Ref sig .tc := ⟨.hbm, 118, rfl⟩
abbrev main_c_19 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_call0_cst : Ref sig .tc := ⟨.hbm, 131, rfl⟩
abbrev main_call0_v0 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_cst_20 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩

abbrev nD : Nat := 1
abbrev τ : Topo := Topo.v7x

variable {F : FTy → Type} [FloatOps F]

class Facts₀ : Prop where
  bcast_S_S200000x3 : S_.BroadcastsInDim S200000x3 (![] : Fin 0 → Fin S200000x3.rank)
  bcast_S200000x3_S200000x3x1_0_1 : S200000x3.BroadcastsInDim S200000x3x1 (![0, 1] : Fin 2 → Fin S200000x3x1.rank)
  slices_S200000x3x3_S200000x1x3_0_0_0 : S200000x3x3.Slices ![0, 0, 0] S200000x1x3
  shapeCasts_S200000x1x3_S200000x3 : S200000x1x3.ShapeCasts S200000x3
  slices_S200000x3x3_S200000x1x3_0_1_0 : S200000x3x3.Slices ![0, 1, 0] S200000x1x3
  slices_S200000x3x3_S200000x1x3_0_2_0 : S200000x3x3.Slices ![0, 2, 0] S200000x1x3
  bcast_S200000x3_S200000x1x3_0_2 : S200000x3.BroadcastsInDim S200000x1x3 (![0, 2] : Fin 2 → Fin S200000x1x3.rank)
  concatenates_S200000x1x3_S200000x1x3_S200000x1x3_S200000x3x3_d1 : Shape.Concatenates [S200000x1x3, S200000x1x3, S200000x1x3] S200000x3x3 1
  reducesTo_S200000x3x3_S200000x3_d1 : S200000x3x3.ReducesTo [1] S200000x3
  h_S_ : 0 < S_.numel
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  concatenates_S600000x3_S600000x3_S600000x3_S600000x9_d1 : Shape.Concatenates [S600000x3, S600000x3, S600000x3] S600000x9 1
  concatenates_S600000x9_S600000x256_S600000x265_d1 : Shape.Concatenates [S600000x9, S600000x256] S600000x265 1
  bcast_S256_S1x256_1 : S256.BroadcastsInDim S1x256 (![1] : Fin 1 → Fin S1x256.rank)
  bcast_S1x256_S600000x256_0_1 : S1x256.BroadcastsInDim S600000x256 (![0, 1] : Fin 2 → Fin S600000x256.rank)
  bcast_S_S600000x256 : S_.BroadcastsInDim S600000x256 (![] : Fin 0 → Fin S600000x256.rank)
  bcast_S_S200000x256 : S_.BroadcastsInDim S200000x256 (![] : Fin 0 → Fin S200000x256.rank)
  gather_S100000x3_S200000x3x1_S200000x3x3_2_0_n_n_0_2_13_wf : GatherDims.WF S100000x3 S200000x3x1 S200000x3x3 [2] [0] [] [0] [] 2 ![1, 3]
  gather_S200000x3_S600000x1_S600000x3_1_0_n_n_0_1_13_wf : GatherDims.WF S200000x3 S600000x1 S600000x3 [1] [0] [] [0] [] 1 ![1, 3]
  gather_S200000x256_S600000x1_S600000x256_1_0_n_n_0_1_1256_wf : GatherDims.WF S200000x256 S600000x1 S600000x256 [1] [0] [] [0] [] 1 ![1, 256]
  dot_S600000x265_S265x256_S600000x256_1_0_0_1_n_n_wf : DotDims.WF S600000x265 S265x256 S600000x256 [1] [0] [0] [1] [] []
  dot_S600000x256_S256x256_S600000x256_1_0_0_1_n_n_wf : DotDims.WF S600000x256 S256x256 S600000x256 [1] [0] [0] [1] [] []
  scatter_S200000x256_S600000x1_S600000x256_1_0_0_1_wf : ScatterDims.WF S200000x256 S600000x1 S600000x256 [1] [0] [0] 1

variable [Facts₀]

def gather_S100000x3_S200000x3x1_S200000x3x3_2_0_n_n_0_2_13 : GatherDims S100000x3 S200000x3x1 S200000x3x3 where
  offsetDims := [2]
  collapsedSliceDims := [0]
  operandBatchingDims := []
  startIndicesBatchingDims := []
  startIndexMap := [0]
  indexVectorDim := 2
  sliceSizes := ![1, 3]
  wf := gather_S100000x3_S200000x3x1_S200000x3x3_2_0_n_n_0_2_13_wf
def gather_S200000x3_S600000x1_S600000x3_1_0_n_n_0_1_13 : GatherDims S200000x3 S600000x1 S600000x3 where
  offsetDims := [1]
  collapsedSliceDims := [0]
  operandBatchingDims := []
  startIndicesBatchingDims := []
  startIndexMap := [0]
  indexVectorDim := 1
  sliceSizes := ![1, 3]
  wf := gather_S200000x3_S600000x1_S600000x3_1_0_n_n_0_1_13_wf
def gather_S200000x256_S600000x1_S600000x256_1_0_n_n_0_1_1256 : GatherDims S200000x256 S600000x1 S600000x256 where
  offsetDims := [1]
  collapsedSliceDims := [0]
  operandBatchingDims := []
  startIndicesBatchingDims := []
  startIndexMap := [0]
  indexVectorDim := 1
  sliceSizes := ![1, 256]
  wf := gather_S200000x256_S600000x1_S600000x256_1_0_n_n_0_1_1256_wf
def dot_S600000x265_S265x256_S600000x256_1_0_0_1_n_n : DotDims S600000x265 S265x256 S600000x256 where
  lhsContracting := [1]
  rhsContracting := [0]
  lhsNonContracting := [0]
  rhsNonContracting := [1]
  lhsBatch := []
  rhsBatch := []
  wf := dot_S600000x265_S265x256_S600000x256_1_0_0_1_n_n_wf
def dot_S600000x256_S256x256_S600000x256_1_0_0_1_n_n : DotDims S600000x256 S256x256 S600000x256 where
  lhsContracting := [1]
  rhsContracting := [0]
  lhsNonContracting := [0]
  rhsNonContracting := [1]
  lhsBatch := []
  rhsBatch := []
  wf := dot_S600000x256_S256x256_S600000x256_1_0_0_1_n_n_wf
def scatter_S200000x256_S600000x1_S600000x256_1_0_0_1 : ScatterDims S200000x256 S600000x1 S600000x256 where
  updateWindowDims := [1]
  insertedWindowDims := [0]
  scatterDimsToOperandDims := [0]
  indexVectorDim := 1
  wf := scatter_S200000x256_S600000x1_S600000x256_1_0_0_1_wf

class Facts : Prop extends Facts₀ where

variable [Facts]
-- ==== Proof.FrameBits.lean ====
/-
  The frame of `Kernel`: its run, and what it leaves in memory.

  This is the kernel program as printed, read at the word level; nothing below depends on the float instance.

  The program is 121 host operations, one pipelined region over 150 grid points, and 4 more host operations. At grid
  point t the region stages rows 4000 t … 4000 t + 3999 of the [600000, 265] input (window 0), the two weight
  matrices and the two bias rows whole (windows 1 to 4, fetched once), runs the body, and writes the [4000, 256]
  block the body stored back to rows 4000 t … of the [600000, 256] result (window 5). The body loads its five inputs
  through whole-buffer rectangles and stores one value through a whole-buffer rectangle, so after the body the output
  buffer holds that value, a function of the five input blocks alone (`blockOut`).

  From this: every weakly fair execution terminates without a fault; each array a window stages ends at what the
  write-backs compose (`run_main`); every argument array ends as launched (`frame`), because no host operation
  writes an argument and the two arguments the region stages are inputs, never written back.
-/
import proofs.«131313_j38190849196538_1_alg».proof.Proof.Gen.Kernel.Launch
import proofs.«131313_j38190849196538_1_alg».proof.Proof.Gen.Kernel.Skeleton
import proofs.«131313_j38190849196538_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- Core `c`'s buffer contents when the region is entered: the launch memory after the 121 host operations. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

set_option maxHeartbeats 4000000 in
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 4000000 in
/-- The program is the host operations before the region, the region, and the host operations after it: run from the
    launch memory it reaches the region at `V` and continues with the later operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the region touch only the region's arrays and buffers the region does not use. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And none of them writes an array the region stages: each writes its own result buffer only. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes `main_arg0`: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation after the region writes `main_arg1`: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation after the region writes `main_arg2`: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation after the region writes `main_arg3`: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host operation after the region writes `main_arg5`: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No host operation after the region writes `main_arg7`: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The argument arrays after a run -/

/-- From a run that ends with every staged array at what the write-backs compose and every other buffer as the later
    host operations leave it: each argument array ends as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).1 1).trans (((dats 0 c).arrAt_in 1 rfl _).trans ((hA c 1).trans (V_main_arg4 m c))),
      ((h c).2 main_arg5 (Pipeline.mem_restRefs_of main_arg5 (by decide) (by decide))).trans (W_main_arg5 m dats c),
      ((h c).1 3).trans (((dats 0 c).arrAt_in 3 rfl _).trans ((hA c 3).trans (V_main_arg6 m c))),
      ((h c).2 main_arg7 (Pipeline.mem_restRefs_of main_arg7 (by decide) (by decide))).trans (W_main_arg7 m dats c)⟩) h

/-! ## The body -/

abbrev rX : Rect S4000x265 := Rect.unit (s := S4000x265) ![0, 0] S4000x265.size inb_S4000x265_S4000x265_0_0
abbrev rW1 : Rect S265x256 := Rect.unit (s := S265x256) ![0, 0] S265x256.size inb_S265x256_S265x256_0_0
abbrev rB : Rect S1x256 := Rect.unit (s := S1x256) ![0, 0] S1x256.size inb_S1x256_S1x256_0_0
abbrev rW2 : Rect S256x256 := Rect.unit (s := S256x256) ![0, 0] S256x256.size inb_S256x256_S256x256_0_0
abbrev rO : Rect S4000x256 := Rect.unit (s := S4000x256) ![0, 0] S4000x256.size inb_S4000x256_S4000x256_0_0

/-- The output window's buffer after the body, from the five input blocks: the one stored value, through the
    whole-buffer rectangle. -/
def blockOut (x0 : Vec F S4000x265 .f32) (x1 : Vec F S265x256 .f32) (x2 : Vec F S1x256 .f32) (x3 : Vec F S256x256 .f32) (x4 : Vec F S1x256 .f32) : Vec F S4000x256 .f32 :=
  View.canon [⟨rO, k0_pay1 (View.ld x0 rX) (View.ld x1 rW1) (View.ld x2 rB) (View.ld x3 rW2) (View.ld x4 rB)⟩]

/-- The one store covers the buffer. -/
theorem blockOut_cover (p0 : Vec F S4000x256 .f32) (y : S4000x256.Idx) :
    ∃ pc ∈ ([⟨rO, p0⟩] : List (View.Piece (Elt F) S4000x256 .f32)), y ∈ pc.1.set :=
  View.cover_of_tiled [⟨rO, p0⟩] S4000x256.size (by rfl) y

set_option maxHeartbeats 4000000 in
/-- The body, on whole staging buffers holding the five input blocks and anything in the output buffer, runs to its end
    with the inputs as they were and the output buffer at `blockOut` of the inputs. -/
theorem sound_kernel (c : Dev nD) (E : Set ℕ) (i : grid0.Coords) (arg1 : Memref sig .tc .vmem S4000x265 .f32) (harg1 : arg1.IsWhole) (arg2 : Memref sig .tc .vmem S265x256 .f32) (harg2 : arg2.IsWhole) (arg3 : Memref sig .tc .vmem S1x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S4000x256 .f32) (harg6 : arg6.IsWhole)
    (x0 : Vec F S4000x265 .f32) (x1 : Vec F S265x256 .f32) (x2 : Vec F S1x256 .f32) (x3 : Vec F S256x256 .f32) (x4 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (blockOut x0 x1 x2 x3 x4)) -∗ K ⟨⟩))
      ⊢ wp frame (wpE (defs₀ (F := F)) Variants.none c none) E (cc0__mlp_kernel i arg1 harg1 arg2 harg2 arg3 harg3 arg4 harg4 arg5 harg5 arg6 harg6) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (blockOut_cover _)

/-! ## The region's proof data -/

/-- On core `c`: the arrays as the region finds them; after the body at point `t` each input's buffer at its block
    and the output's at `blockOut` of the input blocks; the invariant untouched, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => blockOut (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = blockOut (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

set_option maxHeartbeats 4000000 in
/-- The body at any point: the inputs' buffers hold their blocks, so `sound_kernel` applies; the invariant passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates without a fault, with every staged array at what the
    write-backs compose from the proof data and every other buffer as the later host operations leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- Every weakly fair execution terminates without a fault and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.Kernel.Frm

end
-- ==== Proof.FrameIdeal.lean ====
/-
  The frame of `KernelIdeal`: its run, and what it leaves in memory.

  This is the idealized kernel program, whose floats are extended reals; nothing below depends on the float instance.

  The program is 121 host operations, one pipelined region over 150 grid points, and 4 more host operations. At grid
  point t the region stages rows 4000 t … 4000 t + 3999 of the [600000, 265] input (window 0), the two weight
  matrices and the two bias rows whole (windows 1 to 4, fetched once), runs the body, and writes the [4000, 256]
  block the body stored back to rows 4000 t … of the [600000, 256] result (window 5). The body loads its five inputs
  through whole-buffer rectangles and stores one value through a whole-buffer rectangle, so after the body the output
  buffer holds that value, a function of the five input blocks alone (`blockOut`).

  From this: every weakly fair execution terminates without a fault; each array a window stages ends at what the
  write-backs compose (`run_main`); every argument array ends as launched (`frame`), because no host operation
  writes an argument and the two arguments the region stages are inputs, never written back.
-/
import proofs.«131313_j38190849196538_1_alg».proof.Proof.Gen.KernelIdeal.Launch
import proofs.«131313_j38190849196538_1_alg».proof.Proof.Gen.KernelIdeal.Skeleton
import proofs.«131313_j38190849196538_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- Core `c`'s buffer contents when the region is entered: the launch memory after the 121 host operations. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

set_option maxHeartbeats 4000000 in
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 4000000 in
/-- The program is the host operations before the region, the region, and the host operations after it: run from the
    launch memory it reaches the region at `V` and continues with the later operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the region touch only the region's arrays and buffers the region does not use. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And none of them writes an array the region stages: each writes its own result buffer only. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes `main_arg0`: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation after the region writes `main_arg1`: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation after the region writes `main_arg2`: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation after the region writes `main_arg3`: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host operation after the region writes `main_arg5`: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No host operation after the region writes `main_arg7`: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The argument arrays after a run -/

/-- From a run that ends with every staged array at what the write-backs compose and every other buffer as the later
    host operations leave it: each argument array ends as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).1 1).trans (((dats 0 c).arrAt_in 1 rfl _).trans ((hA c 1).trans (V_main_arg4 m c))),
      ((h c).2 main_arg5 (Pipeline.mem_restRefs_of main_arg5 (by decide) (by decide))).trans (W_main_arg5 m dats c),
      ((h c).1 3).trans (((dats 0 c).arrAt_in 3 rfl _).trans ((hA c 3).trans (V_main_arg6 m c))),
      ((h c).2 main_arg7 (Pipeline.mem_restRefs_of main_arg7 (by decide) (by decide))).trans (W_main_arg7 m dats c)⟩) h

/-! ## The body -/

abbrev rX : Rect S4000x265 := Rect.unit (s := S4000x265) ![0, 0] S4000x265.size inb_S4000x265_S4000x265_0_0
abbrev rW1 : Rect S265x256 := Rect.unit (s := S265x256) ![0, 0] S265x256.size inb_S265x256_S265x256_0_0
abbrev rB : Rect S1x256 := Rect.unit (s := S1x256) ![0, 0] S1x256.size inb_S1x256_S1x256_0_0
abbrev rW2 : Rect S256x256 := Rect.unit (s := S256x256) ![0, 0] S256x256.size inb_S256x256_S256x256_0_0
abbrev rO : Rect S4000x256 := Rect.unit (s := S4000x256) ![0, 0] S4000x256.size inb_S4000x256_S4000x256_0_0

/-- The output window's buffer after the body, from the five input blocks: the one stored value, through the
    whole-buffer rectangle. -/
def blockOut (x0 : Vec F S4000x265 .f32) (x1 : Vec F S265x256 .f32) (x2 : Vec F S1x256 .f32) (x3 : Vec F S256x256 .f32) (x4 : Vec F S1x256 .f32) : Vec F S4000x256 .f32 :=
  View.canon [⟨rO, k0_pay1 (View.ld x0 rX) (View.ld x1 rW1) (View.ld x2 rB) (View.ld x3 rW2) (View.ld x4 rB)⟩]

/-- The one store covers the buffer. -/
theorem blockOut_cover (p0 : Vec F S4000x256 .f32) (y : S4000x256.Idx) :
    ∃ pc ∈ ([⟨rO, p0⟩] : List (View.Piece (Elt F) S4000x256 .f32)), y ∈ pc.1.set :=
  View.cover_of_tiled [⟨rO, p0⟩] S4000x256.size (by rfl) y

set_option maxHeartbeats 4000000 in
/-- The body, on whole staging buffers holding the five input blocks and anything in the output buffer, runs to its end
    with the inputs as they were and the output buffer at `blockOut` of the inputs. -/
theorem sound_kernel (c : Dev nD) (E : Set ℕ) (i : grid0.Coords) (arg1 : Memref sig .tc .vmem S4000x265 .f32) (harg1 : arg1.IsWhole) (arg2 : Memref sig .tc .vmem S265x256 .f32) (harg2 : arg2.IsWhole) (arg3 : Memref sig .tc .vmem S1x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S4000x256 .f32) (harg6 : arg6.IsWhole)
    (x0 : Vec F S4000x265 .f32) (x1 : Vec F S265x256 .f32) (x2 : Vec F S1x256 .f32) (x3 : Vec F S256x256 .f32) (x4 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (blockOut x0 x1 x2 x3 x4)) -∗ K ⟨⟩))
      ⊢ wp frame (wpE (defs₀ (F := F)) Variants.none c none) E (cc0__mlp_kernel i arg1 harg1 arg2 harg2 arg3 harg3 arg4 harg4 arg5 harg5 arg6 harg6) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (blockOut_cover _)

/-! ## The region's proof data -/

/-- On core `c`: the arrays as the region finds them; after the body at point `t` each input's buffer at its block
    and the output's at `blockOut` of the input blocks; the invariant untouched, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => blockOut (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = blockOut (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

set_option maxHeartbeats 4000000 in
/-- The body at any point: the inputs' buffers hold their blocks, so `sound_kernel` applies; the invariant passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates without a fault, with every staged array at what the
    write-backs compose from the proof data and every other buffer as the later host operations leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- Every weakly fair execution terminates without a fault and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.KernelIdeal.Frm

end
-- ==== Proof.LibInnerProducts.lean ====
/-
  A matrix product and a sum along the last axis, read at an index on the extended reals.

  At the ideal values a matrix product of an `[M, K]` matrix with a `[K, N]` matrix, accumulated into zero, holds at
  `(p, f)` the inner product of row `p` of the left factor with column `f` of the right factor: the sum over `d` of
  `a (p, d) · w (d, f)`, with no rounding and no order of summation left in it. A sum of an `[a, b, c]` array along its
  last axis holds at `(p, q)` the sum over `f` of the array at `(p, q, f)`. Both are the library's general statements
  with the contraction index and the inserted coordinate written as a plain `Fin`.
-/
import Idealize.ShloMosaic.PureOps.Ideal.Laws
import Idealize.ShloMosaic.Lib.ValueIdx

noncomputable section

namespace Idealize.ShloMosaic.InnerProducts

open Idealize.ShloMosaic Idealize.ShloMosaic.ValueIdx
open scoped BigOperators

/-- An `[M, K]` by `[K, N]` matrix product into the zero accumulator is, at `(p, f)`, the inner product of row `p` of
    the left factor with column `f` of the right factor. `D` is any record of the plain dimension numbers (contract the
    left factor's columns with the right factor's rows, no batch axis). -/
theorem matmul_zero_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    matmul D prec a w (constant (F := Ideal) ⟨2, ![M, N]⟩ .f32 0x00000000#32) (ix2 p f)
      = ∑ d : Fin K, a (ix2 p d) * w (ix2 d f) := by
  subst hD
  refine (Ideal.matmul_constant_zero_apply (DotDims.plain M K N) prec a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- The host's `dot_general` with the same plain dimension numbers is the same inner product (it has no accumulator). -/
theorem dotGeneral_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    Host.dotGeneral D prec a w (ix2 p f) = ∑ d : Fin K, a (ix2 p d) * w (ix2 d f) := by
  subst hD
  refine (Ideal.dotGeneral_apply (DotDims.plain M K N) prec .single a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- A float sum of an `[a, b, c]` array along its last axis is, at `(p, q)`, the sum over `f` of the array at
    `(p, q, f)`. -/
theorem lane_sum_apply {a b c : ℕ} {φ : FTy} (x : FVec Ideal ⟨3, ![a, b, c]⟩ φ) (acc : BitVec φ.bits)
    (h : (⟨3, ![a, b, c]⟩ : Shape).Reduces [2] ⟨2, ![a, b]⟩) (hφ : FKind.Formats φ)
    (hacc : acc = FKind.add.neutral φ hφ) (p : Fin a) (q : Fin b) :
    multiReduction .add [2] ⟨2, ![a, b]⟩ x acc h hφ hacc (ix2 p q) = ∑ f : Fin c, x (ix3 p q f) := by
  refine (Ideal.multiReduction_add_single x acc h hφ hacc (ix2 p q)).trans ?_
  show ∑ f : Fin c, x (h.lift (ix2 p q) f) = ∑ f : Fin c, x (ix3 p q f)
  refine Finset.sum_congr rfl fun f _ => congrArg x (funext fun ax => Fin.ext ?_)
  match ax with
  | ⟨0, _⟩ => rfl
  | ⟨1, _⟩ => rfl
  | ⟨2, _⟩ => rfl

end Idealize.ShloMosaic.InnerProducts

end
-- ==== Proof.LibInDimRow.lean ====
/-
  Two broadcasts of a bias row, read at an index given by coordinates.

  A vector [b] placed on axis 1 of [1, b] reads entry j at (0, j); a row [1, b] spread over [a, b] with its axes kept in
  place reads its one row at (i, j), whatever the row i.  Both are the host's broadcast_in_dim: a broadcast never moves a
  coordinate, it reads the operand at the same coordinate on each axis the operand really has and at 0 on an operand
  axis of extent one.
-/
import Idealize.ShloMosaic.Lib.Pipeline.Value
import Idealize.ShloMosaic.Lib.ValueIdx

namespace Cert.LibInDimRow

open Idealize.ShloMosaic Idealize.ShloMosaic.ValueIdx

variable {α : Type}

/-- [b] placed on axis 1 of [1, b]: entry (u, j) is the operand at j. -/
theorem inDim_b_1b_apply {b : ℕ} (v : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h v (ix2 u j) = v (ix1 j) := by
  refine broadcastInDim_apply _ h v (ix2 u j) (ix1 j) fun ax => ?_
  match ax with
  | ⟨0, _⟩ =>
    show j.val = if b = 1 then 0 else j.val
    split
    · have := j.isLt; omega
    · rfl

/-- A row [1, b] spread over [a, b], axes kept in place: entry (i, j) is the row at (0, j). -/
theorem inDim_1b_ab_apply {a b : ℕ} (v : (⟨2, ![1, b]⟩ : Shape).Idx → α)
    (h : (⟨2, ![1, b]⟩ : Shape).BroadcastsInDim ⟨2, ![a, b]⟩ ![0, 1]) (i : Fin a) (j : Fin b) :
    broadcastInDim ⟨2, ![a, b]⟩ ![0, 1] h v (ix2 i j) = v (ix2 (0 : Fin 1) j) := by
  refine broadcastInDim_apply _ h v (ix2 i j) (ix2 (0 : Fin 1) j) fun ax => ?_
  match ax with
  | ⟨0, _⟩ =>
    show (0 : ℕ) = if (1 : ℕ) = 1 then 0 else _
    rw [if_pos rfl]
  | ⟨1, _⟩ =>
    show j.val = if b = 1 then 0 else j.val
    split
    · have := j.isLt; omega
    · rfl

end Cert.LibInDimRow
-- ==== Proof.LibTwoLayerRows.lean ====
/-
  A perceptron with one hidden layer, read as a function of rows on the extended reals.

  For a matrix x [M, K], weights w1 [K, H], w2 [H, N] and biases b1 [H], b2 [N], hidden unit h of row p is
  max (sum over d of x (p, d) * w1 (d, h) + b1 h, 0), and output f of row p is the sum over h of that hidden unit times
  w2 (h, f), plus b2 f; a second rectifier may follow. Entry (p, f) reads row p of x and nothing else of x, so a block of
  rows pushed through the perceptron is the same block of rows of the whole matrix pushed through it.

  The perceptron is stated in two spellings. A vector unit narrows every matrix operand to bf16 first (which changes nothing
  on the extended reals), multiplies into a zero accumulator, takes each bias as a row [1, .] spread over the rows, and
  takes the maximum with a spread scalar zero. The host's array operations use dot_general, place each bias vector on axis
  1 of [1, .] and spread it over [M, .], and take the maximum with a spread rank-0 zero. No law of arithmetic is needed:
  at every index both spellings are the same tree of sums, products and maxima.
-/
import Idealize.ShloMosaic.PureOps.Ideal.Laws
import Idealize.ShloMosaic.Lib.ValueIdx
import Idealize.ShloMosaic.Lib.ValueLayout
import Idealize.ShloMosaic.Lib.Pipeline.Value
import proofs.«131313_j38190849196538_1_alg».proof.Proof.LibInnerProducts
import proofs.«131313_j38190849196538_1_alg».proof.Proof.LibInDimRow

noncomputable section

namespace Cert.LibTwoLayerRows

open Idealize.ShloMosaic Idealize.ShloMosaic.ValueIdx Idealize.ShloMosaic.InnerProducts
open scoped BigOperators

variable {M B K H N : ℕ}

/-- Hidden unit h of row p: max (x_p . w1_h + b1 h, 0). -/
def hidden (x : FVec Ideal ⟨2, ![M, K]⟩ .f32) (w1 : FVec Ideal ⟨2, ![K, H]⟩ .f32) (b1 : FVec Ideal ⟨1, ![H]⟩ .f32)
    (p : Fin M) (h : Fin H) : EReal :=
  max ((∑ d : Fin K, x (ix2 p d) * w1 (ix2 d h)) + b1 (ix1 h)) (Ideal.ofBits .f32 0x00000000#32)

/-- Output f of row p: the hidden units of row p against column f of w2, plus b2 f. -/
def out (x : FVec Ideal ⟨2, ![M, K]⟩ .f32) (w1 : FVec Ideal ⟨2, ![K, H]⟩ .f32) (b1 : FVec Ideal ⟨1, ![H]⟩ .f32)
    (w2 : FVec Ideal ⟨2, ![H, N]⟩ .f32) (b2 : FVec Ideal ⟨1, ![N]⟩ .f32) (p : Fin M) (f : Fin N) : EReal :=
  (∑ h : Fin H, hidden x w1 b1 p h * w2 (ix2 h f)) + b2 (ix1 f)

/-- The perceptron as a whole array. -/
def mlp (x : FVec Ideal ⟨2, ![M, K]⟩ .f32) (w1 : FVec Ideal ⟨2, ![K, H]⟩ .f32) (b1 : FVec Ideal ⟨1, ![H]⟩ .f32)
    (w2 : FVec Ideal ⟨2, ![H, N]⟩ .f32) (b2 : FVec Ideal ⟨1, ![N]⟩ .f32) : FVec Ideal ⟨2, ![M, N]⟩ .f32 :=
  fun i => out x w1 b1 w2 b2 (i 0) (i 1)

/-- The perceptron followed by a rectifier, as a whole array. -/
def mlpRect (x : FVec Ideal ⟨2, ![M, K]⟩ .f32) (w1 : FVec Ideal ⟨2, ![K, H]⟩ .f32) (b1 : FVec Ideal ⟨1, ![H]⟩ .f32)
    (w2 : FVec Ideal ⟨2, ![H, N]⟩ .f32) (b2 : FVec Ideal ⟨1, ![N]⟩ .f32) : FVec Ideal ⟨2, ![M, N]⟩ .f32 :=
  fun i => max (out x w1 b1 w2 b2 (i 0) (i 1)) (Ideal.ofBits .f32 0x00000000#32)

theorem mlp_apply (x : FVec Ideal ⟨2, ![M, K]⟩ .f32) (w1 : FVec Ideal ⟨2, ![K, H]⟩ .f32) (b1 : FVec Ideal ⟨1, ![H]⟩ .f32)
    (w2 : FVec Ideal ⟨2, ![H, N]⟩ .f32) (b2 : FVec Ideal ⟨1, ![N]⟩ .f32) (p : Fin M) (f : Fin N) :
    mlp x w1 b1 w2 b2 (ix2 p f) = out x w1 b1 w2 b2 p f := rfl

theorem mlpRect_apply (x : FVec Ideal ⟨2, ![M, K]⟩ .f32) (w1 : FVec Ideal ⟨2, ![K, H]⟩ .f32) (b1 : FVec Ideal ⟨1, ![H]⟩ .f32)
    (w2 : FVec Ideal ⟨2, ![H, N]⟩ .f32) (b2 : FVec Ideal ⟨1, ![N]⟩ .f32) (p : Fin M) (f : Fin N) :
    mlpRect x w1 b1 w2 b2 (ix2 p f) = max (out x w1 b1 w2 b2 p f) (Ideal.ofBits .f32 0x00000000#32) := rfl

/-- If row p of the block xb is row q of the matrix X, output f of row p of the block is output f of row q of the matrix. -/
theorem out_row_congr (X : FVec Ideal ⟨2, ![M, K]⟩ .f32) (xb : FVec Ideal ⟨2, ![B, K]⟩ .f32)
    (w1 : FVec Ideal ⟨2, ![K, H]⟩ .f32) (b1 : FVec Ideal ⟨1, ![H]⟩ .f32)
    (w2 : FVec Ideal ⟨2, ![H, N]⟩ .f32) (b2 : FVec Ideal ⟨1, ![N]⟩ .f32) (p : Fin B) (q : Fin M) (f : Fin N)
    (hrow : ∀ d : Fin K, xb (ix2 p d) = X (ix2 q d)) :
    out xb w1 b1 w2 b2 p f = out X w1 b1 w2 b2 q f := by
  unfold out hidden
  rw [Finset.sum_congr rfl fun h _ => by rw [Finset.sum_congr rfl fun d _ => by rw [hrow d]]]

/-- The same when the block comes with its own copies w1', w2' of the weight matrices. -/
theorem out_congr (X : FVec Ideal ⟨2, ![M, K]⟩ .f32) (xb : FVec Ideal ⟨2, ![B, K]⟩ .f32)
    (w1 w1' : FVec Ideal ⟨2, ![K, H]⟩ .f32) (b1 : FVec Ideal ⟨1, ![H]⟩ .f32)
    (w2 w2' : FVec Ideal ⟨2, ![H, N]⟩ .f32) (b2 : FVec Ideal ⟨1, ![N]⟩ .f32) (p : Fin B) (q : Fin M) (f : Fin N)
    (hrow : ∀ d : Fin K, xb (ix2 p d) = X (ix2 q d)) (hw1 : w1' = w1) (hw2 : w2' = w2) :
    out xb w1' b1 w2' b2 p f = out X w1 b1 w2 b2 q f := by
  subst hw1 hw2
  exact out_row_congr X xb w1' b1 w2' b2 p q f hrow

/-- The perceptron as a vector unit computes it on a block of B rows, read at (p, f). The biases arrive as rows r1 [1, H]
    and r2 [1, N] holding the vectors b1 and b2. -/
theorem unit_out_apply (D1 : DotDims ⟨2, ![B, K]⟩ ⟨2, ![K, H]⟩ ⟨2, ![B, H]⟩) (hD1 : D1 = DotDims.plain B K H)
    (D2 : DotDims ⟨2, ![B, H]⟩ ⟨2, ![H, N]⟩ ⟨2, ![B, N]⟩) (hD2 : D2 = DotDims.plain B H N)
    (prec1 prec2 : Option ContractPrecision)
    (x : FVec Ideal ⟨2, ![B, K]⟩ .f32) (w1 : FVec Ideal ⟨2, ![K, H]⟩ .f32) (r1 : FVec Ideal ⟨2, ![1, H]⟩ .f32)
    (w2 : FVec Ideal ⟨2, ![H, N]⟩ .f32) (r2 : FVec Ideal ⟨2, ![1, N]⟩ .f32)
    (b1 : FVec Ideal ⟨1, ![H]⟩ .f32) (b2 : FVec Ideal ⟨1, ![N]⟩ .f32)
    (hr1 : ∀ h : Fin H, r1 (ix2 (0 : Fin 1) h) = b1 (ix1 h)) (hr2 : ∀ f : Fin N, r2 (ix2 (0 : Fin 1) f) = b2 (ix1 f))
    (hn : FTy.bf16.bits < FTy.f32.bits)
    (hx : (⟨2, ![B, K]⟩ : Shape).ShapeCasts ⟨2, ![B, K]⟩)
    (hc1 : (⟨2, ![1, H]⟩ : Shape).ShapeCasts ⟨2, ![1, H]⟩) (hb1 : (⟨2, ![1, H]⟩ : Shape).Broadcasts ⟨2, ![B, H]⟩)
    (hc2 : (⟨2, ![1, N]⟩ : Shape).ShapeCasts ⟨2, ![1, N]⟩) (hb2 : (⟨2, ![1, N]⟩ : Shape).Broadcasts ⟨2, ![B, N]⟩)
    (p : Fin B) (f : Fin N) :
    addf (matmul D2 prec2
        (truncf .bf16 (maximumf (addf
            (matmul D1 prec1 (truncf .bf16 (shapeCast ⟨2, ![B, K]⟩ x hx) hn) (truncf .bf16 w1 hn)
              (constant (F := Ideal) ⟨2, ![B, H]⟩ .f32 0x00000000#32))
            (broadcastTo ⟨2, ![B, H]⟩ (shapeCast ⟨2, ![1, H]⟩ r1 hc1) hb1))
          (broadcast ⟨2, ![B, H]⟩ (Scalar.ofBits (F := Ideal) .f32 0x00000000#32))) hn)
        (truncf .bf16 w2 hn) (constant (F := Ideal) ⟨2, ![B, N]⟩ .f32 0x00000000#32))
      (broadcastTo ⟨2, ![B, N]⟩ (shapeCast ⟨2, ![1, N]⟩ r2 hc2) hb2) (ix2 p f)
    = out x w1 b1 w2 b2 p f := by
  rw [addf_apply, matmul_zero_apply D2 hD2 prec2 _ _ p f, broadcastTo_1b_ab_apply _ hb2 p f, shapeCast_self r2 hc2, hr2 f]
  unfold out
  refine congrArg (· + b2 (ix1 f)) (Finset.sum_congr rfl fun h _ => ?_)
  refine congrArg (· * w2 (ix2 h f)) ?_
  show max (matmul D1 prec1 (truncf .bf16 (shapeCast ⟨2, ![B, K]⟩ x hx) hn) (truncf .bf16 w1 hn)
        (constant (F := Ideal) ⟨2, ![B, H]⟩ .f32 0x00000000#32) (ix2 p h)
      + broadcastTo ⟨2, ![B, H]⟩ (shapeCast ⟨2, ![1, H]⟩ r1 hc1) hb1 (ix2 p h)) (Ideal.ofBits .f32 0x00000000#32)
    = hidden x w1 b1 p h
  rw [matmul_zero_apply D1 hD1 prec1 _ _ p h, broadcastTo_1b_ab_apply _ hb1 p h, shapeCast_self r1 hc1, shapeCast_self x hx, hr1 h]
  rfl

/-- The same with the vector unit's closing rectifier. -/
theorem unit_outRect_apply (D1 : DotDims ⟨2, ![B, K]⟩ ⟨2, ![K, H]⟩ ⟨2, ![B, H]⟩) (hD1 : D1 = DotDims.plain B K H)
    (D2 : DotDims ⟨2, ![B, H]⟩ ⟨2, ![H, N]⟩ ⟨2, ![B, N]⟩) (hD2 : D2 = DotDims.plain B H N)
    (prec1 prec2 : Option ContractPrecision)
    (x : FVec Ideal ⟨2, ![B, K]⟩ .f32) (w1 : FVec Ideal ⟨2, ![K, H]⟩ .f32) (r1 : FVec Ideal ⟨2, ![1, H]⟩ .f32)
    (w2 : FVec Ideal ⟨2, ![H, N]⟩ .f32) (r2 : FVec Ideal ⟨2, ![1, N]⟩ .f32)
    (b1 : FVec Ideal ⟨1, ![H]⟩ .f32) (b2 : FVec Ideal ⟨1, ![N]⟩ .f32)
    (hr1 : ∀ h : Fin H, r1 (ix2 (0 : Fin 1) h) = b1 (ix1 h)) (hr2 : ∀ f : Fin N, r2 (ix2 (0 : Fin 1) f) = b2 (ix1 f))
    (hn : FTy.bf16.bits < FTy.f32.bits)
    (hx : (⟨2, ![B, K]⟩ : Shape).ShapeCasts ⟨2, ![B, K]⟩)
    (hc1 : (⟨2, ![1, H]⟩ : Shape).ShapeCasts ⟨2, ![1, H]⟩) (hb1 : (⟨2, ![1, H]⟩ : Shape).Broadcasts ⟨2, ![B, H]⟩)
    (hc2 : (⟨2, ![1, N]⟩ : Shape).ShapeCasts ⟨2, ![1, N]⟩) (hb2 : (⟨2, ![1, N]⟩ : Shape).Broadcasts ⟨2, ![B, N]⟩)
    (p : Fin B) (f : Fin N) :
    maximumf (addf (matmul D2 prec2
        (truncf .bf16 (maximumf (addf
            (matmul D1 prec1 (truncf .bf16 (shapeCast ⟨2, ![B, K]⟩ x hx) hn) (truncf .bf16 w1 hn)
              (constant (F := Ideal) ⟨2, ![B, H]⟩ .f32 0x00000000#32))
            (broadcastTo ⟨2, ![B, H]⟩ (shapeCast ⟨2, ![1, H]⟩ r1 hc1) hb1))
          (broadcast ⟨2, ![B, H]⟩ (Scalar.ofBits (F := Ideal) .f32 0x00000000#32))) hn)
        (truncf .bf16 w2 hn) (constant (F := Ideal) ⟨2, ![B, N]⟩ .f32 0x00000000#32))
      (broadcastTo ⟨2, ![B, N]⟩ (shapeCast ⟨2, ![1, N]⟩ r2 hc2) hb2))
      (broadcast ⟨2, ![B, N]⟩ (Scalar.ofBits (F := Ideal) .f32 0x00000000#32)) (ix2 p f)
    = max (out x w1 b1 w2 b2 p f) (Ideal.ofBits .f32 0x00000000#32) := by
  rw [maximumf_apply, unit_out_apply D1 hD1 D2 hD2 prec1 prec2 x w1 r1 w2 r2 b1 b2 hr1 hr2 hn hx hc1 hb1 hc2 hb2 p f,
    broadcast_apply]
  rfl

/-- A bias vector as the host spreads it: placed on axis 1 of [1, N], then spread over [M, N]. -/
theorem host_bias_apply (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (f : Fin N) :
    broadcastInDim ⟨2, ![M, N]⟩ ![0, 1] h2 (broadcastInDim ⟨2, ![1, N]⟩ ![1] h1 b) (ix2 p f) = b (ix1 f) := by
  rw [Cert.LibInDimRow.inDim_1b_ab_apply _ h2 p f, Cert.LibInDimRow.inDim_b_1b_apply b h1 0 f]

/-- A rank-0 value spread over a matrix reads that value everywhere. -/
theorem host_scalar_apply (v : FVec Ideal ⟨0, ![]⟩ .f32)
    (h0 : (⟨0, ![]⟩ : Shape).BroadcastsInDim ⟨2, ![M, N]⟩ ![]) (i : (⟨2, ![M, N]⟩ : Shape).Idx) :
    broadcastInDim ⟨2, ![M, N]⟩ ![] h0 v i = v ix0 :=
  broadcastInDim_apply _ h0 v i ix0 fun ax => ax.elim0

/-- The perceptron as the host's array operations compute it. -/
theorem host_mlp (D1 : DotDims ⟨2, ![M, K]⟩ ⟨2, ![K, H]⟩ ⟨2, ![M, H]⟩) (hD1 : D1 = DotDims.plain M K H)
    (D2 : DotDims ⟨2, ![M, H]⟩ ⟨2, ![H, N]⟩ ⟨2, ![M, N]⟩) (hD2 : D2 = DotDims.plain M H N)
    (prec1 prec2 : Option ContractPrecision)
    (x : FVec Ideal ⟨2, ![M, K]⟩ .f32) (w1 : FVec Ideal ⟨2, ![K, H]⟩ .f32) (b1 : FVec Ideal ⟨1, ![H]⟩ .f32)
    (w2 : FVec Ideal ⟨2, ![H, N]⟩ .f32) (b2 : FVec Ideal ⟨1, ![N]⟩ .f32)
    (h11 : (⟨1, ![H]⟩ : Shape).BroadcastsInDim ⟨2, ![1, H]⟩ ![1])
    (h12 : (⟨2, ![1, H]⟩ : Shape).BroadcastsInDim ⟨2, ![M, H]⟩ ![0, 1])
    (h10 : (⟨0, ![]⟩ : Shape).BroadcastsInDim ⟨2, ![M, H]⟩ ![])
    (h21 : (⟨1, ![N]⟩ : Shape).BroadcastsInDim ⟨2, ![1, N]⟩ ![1])
    (h22 : (⟨2, ![1, N]⟩ : Shape).BroadcastsInDim ⟨2, ![M, N]⟩ ![0, 1]) :
    addf (Host.dotGeneral D2 prec2
        (maximumf (addf (Host.dotGeneral D1 prec1 x w1)
            (broadcastInDim ⟨2, ![M, H]⟩ ![0, 1] h12 (broadcastInDim ⟨2, ![1, H]⟩ ![1] h11 b1)))
          (broadcastInDim ⟨2, ![M, H]⟩ ![] h10 (constant (F := Ideal) ⟨0, ![]⟩ .f32 0x00000000#32))) w2)
      (broadcastInDim ⟨2, ![M, N]⟩ ![0, 1] h22 (broadcastInDim ⟨2, ![1, N]⟩ ![1] h21 b2))
    = mlp x w1 b1 w2 b2 := by
  funext i
  obtain ⟨p, f, rfl⟩ : ∃ (p : Fin M) (f : Fin N), i = ix2 p f := ⟨i 0, i 1, eq_ix2 i⟩
  rw [addf_apply, dotGeneral_apply D2 hD2 prec2 _ w2 p f, host_bias_apply b2 h21 h22 p f, mlp_apply]
  unfold out
  refine congrArg (· + b2 (ix1 f)) (Finset.sum_congr rfl fun h _ => ?_)
  refine congrArg (· * w2 (ix2 h f)) ?_
  rw [maximumf_apply, addf_apply, dotGeneral_apply D1 hD1 prec1 x w1 p h, host_bias_apply b1 h11 h12 p h,
    host_scalar_apply _ h10]
  rfl

/-- The same followed by the host's rectifier. -/
theorem host_mlpRect (D1 : DotDims ⟨2, ![M, K]⟩ ⟨2, ![K, H]⟩ ⟨2, ![M, H]⟩) (hD1 : D1 = DotDims.plain M K H)
    (D2 : DotDims ⟨2, ![M, H]⟩ ⟨2, ![H, N]⟩ ⟨2, ![M, N]⟩) (hD2 : D2 = DotDims.plain M H N)
    (prec1 prec2 : Option ContractPrecision)
    (x : FVec Ideal ⟨2, ![M, K]⟩ .f32) (w1 : FVec Ideal ⟨2, ![K, H]⟩ .f32) (b1 : FVec Ideal ⟨1, ![H]⟩ .f32)
    (w2 : FVec Ideal ⟨2, ![H, N]⟩ .f32) (b2 : FVec Ideal ⟨1, ![N]⟩ .f32)
    (h11 : (⟨1, ![H]⟩ : Shape).BroadcastsInDim ⟨2, ![1, H]⟩ ![1])
    (h12 : (⟨2, ![1, H]⟩ : Shape).BroadcastsInDim ⟨2, ![M, H]⟩ ![0, 1])
    (h10 : (⟨0, ![]⟩ : Shape).BroadcastsInDim ⟨2, ![M, H]⟩ ![])
    (h21 : (⟨1, ![N]⟩ : Shape).BroadcastsInDim ⟨2, ![1, N]⟩ ![1])
    (h22 : (⟨2, ![1, N]⟩ : Shape).BroadcastsInDim ⟨2, ![M, N]⟩ ![0, 1])
    (h20 : (⟨0, ![]⟩ : Shape).BroadcastsInDim ⟨2, ![M, N]⟩ ![]) :
    maximumf (addf (Host.dotGeneral D2 prec2
        (maximumf (addf (Host.dotGeneral D1 prec1 x w1)
            (broadcastInDim ⟨2, ![M, H]⟩ ![0, 1] h12 (broadcastInDim ⟨2, ![1, H]⟩ ![1] h11 b1)))
          (broadcastInDim ⟨2, ![M, H]⟩ ![] h10 (constant (F := Ideal) ⟨0, ![]⟩ .f32 0x00000000#32))) w2)
      (broadcastInDim ⟨2, ![M, N]⟩ ![0, 1] h22 (broadcastInDim ⟨2, ![1, N]⟩ ![1] h21 b2)))
      (broadcastInDim ⟨2, ![M, N]⟩ ![] h20 (constant (F := Ideal) ⟨0, ![]⟩ .f32 0x00000000#32))
    = mlpRect x w1 b1 w2 b2 := by
  funext i
  rw [maximumf_apply, host_mlp D1 hD1 D2 hD2 prec1 prec2 x w1 b1 w2 b2 h11 h12 h10 h21 h22, host_scalar_apply _ h20]
  rfl

end Cert.LibTwoLayerRows

end
-- ==== Proof.LibHostReads.lean ====
/-
  Reading a list of host operations at one reference, through operations over three operand references.

  A host operation leaves, at its result buffer, its function applied to its operands' contents. For an operation built
  over a literal family of three operand references (a concatenation of three pieces) the family of contents is given here
  operand by operand: `apply3 f A B C` is the function applied to the three contents, each read at its own reference and
  taken at that reference's own type; the family is rebuilt position by position (`fam3`) only inside `apply3`, which
  unfolds to the plain application by definition. The three contents are then ordinary arguments, and a rewriting pass
  goes on reading them (`nary3_result`). `after_results3` reads a literal list of host operations at one reference in one
  simplifier pass with this rule.

  A concatenation's side condition mentions its list of pieces, so a rewriting pass does not read on inside that list.
  `concat2_congr` is the congruence that reaches the two pieces of a two-piece concatenation; `after_append` splits a
  list of operations in two.
-/
import Idealize.ShloMosaic.Lib.StableHlo.Run

noncomputable section

namespace Idealize.ShloMosaic.StableHlo

/-- Three values, one per position of `Fin 3`, each of its own type. -/
def fam3 {α : Fin 3 → Type} (x : α 0) (y : α 1) (z : α 2) : (k : Fin 3) → α k
  | ⟨0, _⟩ => x
  | ⟨1, _⟩ => y
  | ⟨2, _⟩ => z

theorem fam3_zero {α : Fin 3 → Type} (x : α 0) (y : α 1) (z : α 2) : fam3 x y z 0 = x := rfl
theorem fam3_one {α : Fin 3 → Type} (x : α 0) (y : α 1) (z : α 2) : fam3 x y z 1 = y := rfl
theorem fam3_two {α : Fin 3 → Type} (x : α 0) (y : α 1) (z : α 2) : fam3 x y z 2 = z := rfl

variable {τ : Topo} {sig : RefSig} {Val : EltTy → Type}

/-- A function of a family over three literal references, applied to three contents given one by one. -/
def apply3 {x a b y : Ref sig .tc}
    (f : ((k : Fin 3) → ((![x, a, b] : Fin 3 → Ref sig .tc) k).ty.Contents Val) → y.ty.Contents Val)
    (A : x.ty.Contents Val) (B : a.ty.Contents Val) (C : b.ty.Contents Val) : y.ty.Contents Val :=
  f (fam3 (α := fun k => ((![x, a, b] : Fin 3 → Ref sig .tc) k).ty.Contents Val) A B C)

/-- A three-operand host operation at its own result: its function of the three operands' contents, each read at its own
    reference. -/
theorem nary3_result {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = apply3 f (F (Proc.devRef .tc x)) (F (Proc.devRef .tc a)) (F (Proc.devRef .tc b)) := by
  rw [nary_result]; unfold apply3; congr 1; funext k; fin_cases k <;> rfl

/-- The same, keyed for the simplifier on the operation alone. -/
theorem nary3_result' {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = apply3 f (F (Proc.devRef .tc x)) (F (Proc.devRef .tc a)) (F (Proc.devRef .tc b)) :=
  nary3_result f hxs hy F

/-- What a literal list of host operations leaves at one reference, in one simplifier pass; a three-operand operation
    is read operand by operand. -/
macro "after_results3" : tactic =>
  `(tactic| (simp (disch := decide) only [after_cons, after_nil,
      nullary_result', unary_result', binary_result', ternary_result', quaternary_result', reshape_result', nary4_result', nary3_result',
      unaryIndexed_result', binaryIndexed_result',
      nullary_result_ne', unary_result_ne', binary_result_ne', ternary_result_ne', quaternary_result_ne', reshape_result_ne',
      nary_result_ne', unaryIndexed_result_ne', binaryIndexed_result_ne']))

/-- The operations of a list run in two stretches. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- Two-piece concatenations of equal pieces are equal. -/
theorem concat2_congr {α : Type} {S S₁ S₂ : Shape} {ax : Fin S.rank} {A A' : S₁.Idx → α} {B B' : S₂.Idx → α}
    (h : Shape.Concatenates [S₁, S₂] S ax) (hA : A = A') (hB : B = B') :
    concatenate S ax [⟨S₁, A⟩, ⟨S₂, B⟩] h = concatenate S ax [⟨S₁, A'⟩, ⟨S₂, B'⟩] h := by
  subst hA hB; rfl

end Idealize.ShloMosaic.StableHlo

end
-- ==== Proof.KernelRows.lean ====
/-
  What the idealized kernel program leaves in the region's result array: the two-layer perceptron of every row.

  The region runs over 150 grid points. At point t the body sees rows 4000 t … 4000 t + 3999 of the [600000, 265]
  input array X, the weight matrices W1 [265, 256] and W2 [256, 256] whole, and the two bias vectors as rows [1, 256];
  it stores max(x W1 + b1, 0) W2 + b2 for its 4000 rows, and the pipeline writes that block back to the same rows of the
  [600000, 256] result. Entry (r, f) of the result therefore depends on row r of X only, and is the perceptron's
  output f of row r: the blocks tile the rows, so the whole result array is the perceptron of X, row by row.
-/
import proofs.«131313_j38190849196538_1_alg».proof.Proof.FrameIdeal
import proofs.«131313_j38190849196538_1_alg».proof.Proof.LibTwoLayerRows
import proofs.«131313_j38190849196538_1_alg».proof.Proof.LibHostReads
import Idealize.ShloMosaic.Lib.Pipeline.Value
import Idealize.ShloMosaic.Lib.ValueIdx
import Idealize.ShloMosaic.Lib.ValueLayout
import Idealize.ShloMosaic.Lib.StableHlo.Run

noncomputable section

open Idealize.ShloMosaic Idealize.ShloMosaic.TcCoe Idealize.SL.Sem Idealize.ShloMosaic.ValueIdx
open Idealize.ShloMosaic.Pipeline (Dat)
open Idealize.ShloMosaic.StableHlo (after_cons after_nil)

namespace Cert.KernelIdeal.Rows

open Cert.KernelIdeal Cert.KernelIdeal.Gen Cert.KernelIdeal.Frm Cert.LibTwoLayerRows

variable (m : (ℓ : Loc nD τ sig) → Buf (Elt Ideal) ℓ) (ρ : Dev nD → PrngReg)

theorem hz : (![0, 0] : Fin 2 → Nat) = fun _ => 0 := funext fun a => by fin_cases a <;> rfl

/-- The block index of every window at every grid point: the row-blocked input and the output move with the point along
    the rows, every other window stays at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of the input block at point t is row 4000 t + p of the input array. -/
theorem xblk_apply (c : Dev nD) (t : Fin cfg0.N) (p : Fin 4000) (d : Fin 265) (q : Fin 600000) (hq : q.val = 4000 * t.val + p.val) :
    (iblk m c 0 t : Vec Ideal S4000x265 .f32) (ix2 p d) = (V m c main_v96 : S600000x265.Idx → Elt Ideal .f32) (ix2 q d) := by
  obtain ⟨e0, e1, -⟩ := idx_facts t
  unfold iblk
  rw [View.read_apply]
  show (V m c main_v96 : S600000x265.Idx → Elt Ideal .f32) _ = _
  refine congrArg (V m c main_v96 : S600000x265.Idx → Elt Ideal .f32) ?_
  funext a
  apply Fin.ext
  match a with
  | ⟨0, _⟩ => show win0_0.index t (0 : Fin 2) * 4000 + 1 * p.val = q.val; rw [e0, hq]; omega
  | ⟨1, _⟩ => show win0_0.index t (1 : Fin 2) * 265 + 1 * d.val = d.val; rw [e1]; omega

/-- The first weight matrix's block is the whole matrix, at every point. -/
theorem w1blk (c : Dev nD) (t : Fin cfg0.N) :
    (iblk m c 1 t : Vec Ideal S265x256 .f32) = (V m c main_arg4 : S265x256.Idx → Elt Ideal .f32) := by
  obtain ⟨-, -, e0, e1, -⟩ := idx_facts t
  funext x
  unfold iblk
  rw [View.read_apply]
  show (V m c main_arg4 : S265x256.Idx → Elt Ideal .f32) _ = _
  refine congrArg (V m c main_arg4 : S265x256.Idx → Elt Ideal .f32) ?_
  funext a
  apply Fin.ext
  match a with
  | ⟨0, _⟩ => show win0_1.index t (0 : Fin 2) * 265 + 1 * (x 0).val = (x 0).val; rw [e0]; omega
  | ⟨1, _⟩ => show win0_1.index t (1 : Fin 2) * 256 + 1 * (x 1).val = (x 1).val; rw [e1]; omega

/-- The first bias row's block is the whole row. -/
theorem b1blk (c : Dev nD) (t : Fin cfg0.N) :
    (iblk m c 2 t : Vec Ideal S1x256 .f32) = (V m c main_v97 : S1x256.Idx → Elt Ideal .f32) := by
  obtain ⟨-, -, -, -, e0, e1, -⟩ := idx_facts t
  funext x
  unfold iblk
  rw [View.read_apply]
  show (V m c main_v97 : S1x256.Idx → Elt Ideal .f32) _ = _
  refine congrArg (V m c main_v97 : S1x256.Idx → Elt Ideal .f32) ?_
  funext a
  apply Fin.ext
  match a with
  | ⟨0, _⟩ => show win0_2.index t (0 : Fin 2) * 1 + 1 * (x 0).val = (x 0).val; rw [e0]; omega
  | ⟨1, _⟩ => show win0_2.index t (1 : Fin 2) * 256 + 1 * (x 1).val = (x 1).val; rw [e1]; omega

/-- The second weight matrix's block is the whole matrix. -/
theorem w2blk (c : Dev nD) (t : Fin cfg0.N) :
    (iblk m c 3 t : Vec Ideal S256x256 .f32) = (V m c main_arg6 : S256x256.Idx → Elt Ideal .f32) := by
  obtain ⟨-, -, -, -, -, -, e0, e1, -⟩ := idx_facts t
  funext x
  unfold iblk
  rw [View.read_apply]
  show (V m c main_arg6 : S256x256.Idx → Elt Ideal .f32) _ = _
  refine congrArg (V m c main_arg6 : S256x256.Idx → Elt Ideal .f32) ?_
  funext a
  apply Fin.ext
  match a with
  | ⟨0, _⟩ => show win0_3.index t (0 : Fin 2) * 256 + 1 * (x 0).val = (x 0).val; rw [e0]; omega
  | ⟨1, _⟩ => show win0_3.index t (1 : Fin 2) * 256 + 1 * (x 1).val = (x 1).val; rw [e1]; omega

/-- The second bias row's block is the whole row. -/
theorem b2blk (c : Dev nD) (t : Fin cfg0.N) :
    (iblk m c 4 t : Vec Ideal S1x256 .f32) = (V m c main_v98 : S1x256.Idx → Elt Ideal .f32) := by
  obtain ⟨-, -, -, -, -, -, -, -, e0, e1, -⟩ := idx_facts t
  funext x
  unfold iblk
  rw [View.read_apply]
  show (V m c main_v98 : S1x256.Idx → Elt Ideal .f32) _ = _
  refine congrArg (V m c main_v98 : S1x256.Idx → Elt Ideal .f32) ?_
  funext a
  apply Fin.ext
  match a with
  | ⟨0, _⟩ => show win0_4.index t (0 : Fin 2) * 1 + 1 * (x 0).val = (x 0).val; rw [e0]; omega
  | ⟨1, _⟩ => show win0_4.index t (1 : Fin 2) * 256 + 1 * (x 1).val = (x 1).val; rw [e1]; omega

/-- The first bias row as the region finds it: the bias vector given a leading unit axis. -/
theorem V_b1row (c : Dev nD) : (V m c main_v97 : S1x256.Idx → Elt Ideal .f32)
    = shapeCast S1x256 (m ((c : Thread nD τ).loc main_arg5)) shapeCasts_S256_S1x256 := by
  show StableHlo.after hostOps0 (fun b => m (c, b)) (Proc.devRef .tc main_v97) = _
  after_results3
  rfl

/-- The second bias row as the region finds it. -/
theorem V_b2row (c : Dev nD) : (V m c main_v98 : S1x256.Idx → Elt Ideal .f32)
    = shapeCast S1x256 (m ((c : Thread nD τ).loc main_arg7)) shapeCasts_S256_S1x256 := by
  show StableHlo.after hostOps0 (fun b => m (c, b)) (Proc.devRef .tc main_v98) = _
  after_results3
  rfl

/-- The body's stored value at (p, f): output f of the perceptron of row p of the block, for bias rows holding the
    bias vectors. -/
theorem pay_apply (x0 : Vec Ideal S4000x265 .f32) (x1 : Vec Ideal S265x256 .f32) (x2 : Vec Ideal S1x256 .f32)
    (x3 : Vec Ideal S256x256 .f32) (x4 : Vec Ideal S1x256 .f32) (b1 b2 : FVec Ideal S256 .f32)
    (hr1 : ∀ h : Fin 256, x2 (ix2 (0 : Fin 1) h) = b1 (ix1 h)) (hr2 : ∀ f : Fin 256, x4 (ix2 (0 : Fin 1) f) = b2 (ix1 f))
    (p : Fin 4000) (f : Fin 256) :
    k0_pay1 x0 x1 x2 x3 x4 (ix2 p f) = out (M := 4000) (K := 265) (H := 256) (N := 256) x0 x1 b1 x3 b2 p f := by
  unfold k0_pay1
  exact unit_out_apply dot_S4000x265_S265x256_S4000x256_1_0_0_1_n_n rfl dot_S4000x256_S256x256_S4000x256_1_0_0_1_n_n rfl none none
    x0 x1 x2 x3 x4 b1 b2 hr1 hr2 bitsLt_bf16_f32 shapeCasts_S4000x265_S4000x265 shapeCasts_S1x256_S1x256 broadcasts_S1x256_S4000x256
    shapeCasts_S1x256_S1x256 broadcasts_S1x256_S4000x256 p f

/-- The first bias row holds the first bias vector. -/
theorem b1_row (c : Dev nD) (t : Fin cfg0.N) (h : Fin 256) :
    (iblk m c 2 t : Vec Ideal S1x256 .f32) (ix2 (0 : Fin 1) h) = (m ((c : Thread nD τ).loc main_arg5) : S256.Idx → Elt Ideal .f32) (ix1 h) := by
  rw [b1blk, V_b1row]
  exact shapeCast_a_1a_apply _ _ 0 h

/-- The second bias row holds the second bias vector. -/
theorem b2_row (c : Dev nD) (t : Fin cfg0.N) (f : Fin 256) :
    (iblk m c 4 t : Vec Ideal S1x256 .f32) (ix2 (0 : Fin 1) f) = (m ((c : Thread nD τ).loc main_arg7) : S256.Idx → Elt Ideal .f32) (ix1 f) := by
  rw [b2blk, V_b2row]
  exact shapeCast_a_1a_apply _ _ 0 f

/-- The region's result array: the perceptron of every row of the input array as the region finds it. -/
def rowsOut (c : Dev nD) : S600000x256.Idx → Elt Ideal .f32 :=
  mlp (M := 600000) (K := 265) (H := 256) (N := 256) (V m c main_v96) (m ((c : Thread nD τ).loc main_arg4))
    (m ((c : Thread nD τ).loc main_arg5)) (m ((c : Thread nD τ).loc main_arg6)) (m ((c : Thread nD τ).loc main_arg7))

/-- The body's stored value at (p, f), at grid point t, is entry (4000 t + p, f) of `rowsOut`: it reads row p of the block,
    which is row 4000 t + p of the array, and the weights and biases whole. -/
theorem block_apply (c : Dev nD) (t : Fin cfg0.N) (p : Fin 4000) (f : Fin 256) (q : Fin 600000) (hq : q.val = 4000 * t.val + p.val) :
    k0_pay1 (iblk m c 0 t) (iblk m c 1 t) (iblk m c 2 t) (iblk m c 3 t) (iblk m c 4 t) (ix2 p f) = rowsOut m c (ix2 q f) := by
  unfold rowsOut
  rw [mlp_apply]
  refine (pay_apply (iblk m c 0 t) (iblk m c 1 t) (iblk m c 2 t) (iblk m c 3 t) (iblk m c 4 t)
    (m ((c : Thread nD τ).loc main_arg5)) (m ((c : Thread nD τ).loc main_arg7)) (b1_row m c t) (b2_row m c t) p f).trans ?_
  exact out_congr (V m c main_v96) (iblk m c 0 t) (m ((c : Thread nD τ).loc main_arg4)) (iblk m c 1 t)
    (m ((c : Thread nD τ).loc main_arg5)) (m ((c : Thread nD τ).loc main_arg6)) (iblk m c 3 t) (m ((c : Thread nD τ).loc main_arg7))
    p q f (fun d => xblk_apply m c t p d q hq) ((w1blk m c t).trans (V_main_arg4 m c)) ((w2blk m c t).trans (V_main_arg6 m c))

/-- The same at any index: entry y of the body's stored value at point t is entry k of `rowsOut` when k is y moved down
    by 4000 t rows. -/
theorem block_apply' (c : Dev nD) (t : Fin cfg0.N) (y : S4000x256.Idx) (k : S600000x256.Idx)
    (hk0 : (k 0).val = 4000 * t.val + (y 0).val) (hk1 : (k 1).val = (y 1).val) :
    k0_pay1 (iblk m c 0 t) (iblk m c 1 t) (iblk m c 2 t) (iblk m c 3 t) (iblk m c 4 t) y = rowsOut m c k := by
  obtain ⟨p, f, rfl⟩ : ∃ (p : Fin 4000) (f : Fin 256), y = ix2 p f := ⟨y 0, y 1, eq_ix2 y⟩
  obtain ⟨q, g, rfl⟩ : ∃ (q : Fin 600000) (g : Fin 256), k = ix2 q g := ⟨k 0, k 1, eq_ix2 k⟩
  have hg : g = f := Fin.ext hk1
  subst hg
  exact block_apply m c t p g q hk0

/-- Index y of a block at grid point t, as an index of the whole result array: 4000 t rows further down. -/
def shiftRows (t : Fin cfg0.N) (y : S4000x256.Idx) : S600000x256.Idx :=
  ix2 (⟨4000 * t.val + (y 0).val, by
        have h1 : t.val < 150 := Nat.lt_of_lt_of_eq t.isLt N_0
        have h2 : (y 0).val < 4000 := (y 0).isLt
        omega⟩ : Fin 600000)
      (⟨(y 1).val, (y 1).isLt⟩ : Fin 256)

/-- The body's stored value at grid point t, as a whole block: rows 4000 t … 4000 t + 3999 of `rowsOut`. -/
theorem payRows (c : Dev nD) (t : Fin cfg0.N) :
    k0_pay1 (iblk m c 0 t) (iblk m c 1 t) (iblk m c 2 t) (iblk m c 3 t) (iblk m c 4 t)
      = fun y : S4000x256.Idx => rowsOut m c (shiftRows t y) := by
  funext y
  exact block_apply' m c t y (shiftRows t y) rfl rfl

end Cert.KernelIdeal.Rows

end
-- ==== Proof.KernelBlocks.lean ====
/-
  From blocks to the array: the region's result array after all 150 grid points.

  Point t writes back the block the body stored for rows 4000 t … 4000 t + 3999; that block is those rows of the
  perceptron of the input array (`rowsOut`). Row r lies in the block of point r / 4000, so the 150 blocks cover the
  array, and the array ends holding `rowsOut`.
-/
import proofs.«131313_j38190849196538_1_alg».proof.Proof.KernelRows

noncomputable section

open Idealize.ShloMosaic Idealize.ShloMosaic.TcCoe Idealize.SL.Sem Idealize.ShloMosaic.ValueIdx
open Idealize.ShloMosaic.Pipeline (Dat)

namespace Cert.KernelIdeal.Rows

open Cert.KernelIdeal Cert.KernelIdeal.Gen Cert.KernelIdeal.Frm Cert.LibTwoLayerRows

variable (m : (ℓ : Loc nD τ sig) → Buf (Elt Ideal) ℓ) (ρ : Dev nD → PrngReg)

/-- What point t writes back is block t of `rowsOut`. -/
theorem flushed_eq (c : Dev nD) (t : Fin cfg0.N) :
    (dats m 0 c).flushed 5 t = ((cfg0.win 5).blk t).view.read (Elt Ideal) (rowsOut m c) := by
  show (cfg0.win 5).cut (grid0.coords t) ((dats m 0 c).after 5 t) = _
  rw [after0_5]
  unfold blockOut
  rw [View.canon_unit_zero hz]
  simp only [View.ld_unit_zero (S := S4000x265) hz, View.ld_unit_zero (S := S265x256) hz, View.ld_unit_zero (S := S1x256) hz,
    View.ld_unit_zero (S := S256x256) hz]
  rw [payRows m c t]
  generalize rowsOut m c = G
  obtain ⟨-, -, -, -, -, -, -, -, -, -, e0, e1⟩ := idx_facts t
  funext j
  rw [View.read_apply]
  refine (cast_eq_iff_heq.mpr ?_).symm
  refine heq_of_eq ?_
  show G _ = G (shiftRows t ((cfg0.win 5).xinj (grid0.coords t) j))
  refine congrArg G ?_
  funext a
  apply Fin.ext
  match a with
  | ⟨0, _⟩ => show win0_5.index t (0 : Fin 2) * 4000 + 1 * (j 0).val = 4000 * t.val + (j 0).val; rw [e0]; omega
  | ⟨1, _⟩ => show win0_5.index t (1 : Fin 2) * 256 + 1 * (j 1).val = (j 1).val; rw [e1]; omega

/-- An index of the result array is in point t's block iff each coordinate is in the block's range on its axis. -/
theorem mem_blk (t : Fin cfg0.N) (i : S600000x256.Idx) :
    i ∈ ((cfg0.win 5).blk t).view.set ↔ ∀ a : Fin 2, win0_5.index t a * S4000x256.size a ≤ (i a).val ∧ (i a).val < win0_5.index t a * S4000x256.size a + S4000x256.size a := by
  show i ∈ ((View.whole main_v99).slice (win0_5.rect t)).set ↔ _
  rw [View.set_slice_whole, Rect.mem_set_unit]
  exact Iff.rfl

/-- Row r of the result array is in the block of point r / 4000, which is written back. -/
theorem cover (i : S600000x256.Idx) : ∃ t : Fin cfg0.N, (cfg0.win 5).flush t = true ∧ i ∈ ((cfg0.win 5).blk t).view.set := by
  have hi0 : (i 0).val < 600000 := (i 0).isLt
  have hi1 : (i 1).val < 256 := (i 1).isLt
  obtain ⟨t, ht⟩ : ∃ t : Fin cfg0.N, t.val = (i 0).val / 4000 := ⟨⟨(i 0).val / 4000, by rw [show cfg0.N = 150 from N_0]; omega⟩, rfl⟩
  obtain ⟨-, -, -, -, -, -, -, -, -, -, e0, e1⟩ := idx_facts t
  refine ⟨t, flush0_5 t, ?_⟩
  rw [mem_blk]
  intro a
  match a with
  | ⟨0, _⟩ => show win0_5.index t (0 : Fin 2) * 4000 ≤ (i 0).val ∧ (i 0).val < win0_5.index t (0 : Fin 2) * 4000 + 4000; rw [e0, ht]; omega
  | ⟨1, _⟩ => show win0_5.index t (1 : Fin 2) * 256 ≤ (i 1).val ∧ (i 1).val < win0_5.index t (1 : Fin 2) * 256 + 256; rw [e1]; omega

/-- After the region the result array holds `rowsOut`: every point's block is that block of it, and the blocks cover it. -/
theorem final (c : Dev nD) : (dats m 0 c).arrAt 5 cfg0.N = rowsOut m c :=
  (dats m 0 c).arrAt_eq_of_cover 5 (rowsOut m c) (fun t _ => flushed_eq m c t) cover

end Cert.KernelIdeal.Rows

end
-- ==== Proof.KernelTail.lean ====
/-
  The program's result: the four host operations after the region, applied to the region's result array.
-/
import proofs.«131313_j38190849196538_1_alg».proof.Proof.KernelBlocks
import proofs.«131313_j38190849196538_1_alg».proof.Proof.LibHostReads

noncomputable section

open Idealize.ShloMosaic Idealize.ShloMosaic.TcCoe Idealize.SL.Sem Idealize.ShloMosaic.ValueIdx
open Idealize.ShloMosaic.Pipeline (Dat)

namespace Cert.KernelIdeal.Rows

open Cert.KernelIdeal Cert.KernelIdeal.Gen Cert.KernelIdeal.Frm Cert.LibTwoLayerRows

variable (m : (ℓ : Loc nD τ sig) → Buf (Elt Ideal) ℓ) (ρ : Dev nD → PrngReg)

/-- What the program returns: a zero array to which row r of `rowsOut` is added at the row the r-th entry of the first
    index row names, for every r. -/
def result (c : Dev nD) : S200000x256.Idx → Elt Ideal .f32 :=
  Host.scatterAdd scatter_S200000x256_S600000x1_S600000x256_1_0_0_1
    (broadcastInDim S200000x256 ![] bcast_S_S200000x256 (constant (F := Ideal) S_ .f32 0x00000000#32))
    (broadcastInDim S600000x1 ![0] bcast_S600000_S600000x1_0 (V m c main_v1))
    (rowsOut m c)

/-- The four host operations after the region compute `result` from the region's result array: they read the array the
    region wrote and the first index row the operations before the region left, and write only their own buffers. -/
theorem tail_eq (c : Dev nD) : Pipeline.afterTail₀ cfgs (dats m) 0 (V0 m) [hostOps1] c main_v102 = result m c := by
  unfold Pipeline.afterTail₀
  show StableHlo.after hostOps1 _ (Proc.devRef .tc main_v102) = _
  after_results3
  have h99 : Pipeline.withArrays (cfgs 0).spec c (V0 m c) (fun w => (dats m 0 c).arrAt w (cfgs 0).N) (Proc.devRef .tc main_v99)
      = rowsOut m c :=
    (Pipeline.withArrays_arr spec0 launch0.win.arr_inj c (V0 m c) (fun w => (dats m 0 c).arrAt w (cfgs 0).N) 5).trans (final m c)
  have h1 : Pipeline.withArrays (cfgs 0).spec c (V0 m c) (fun w => (dats m 0 c).arrAt w (cfgs 0).N) (Proc.devRef .tc main_v1)
      = V0 m c (Proc.devRef .tc main_v1) :=
    Pipeline.withArrays_of_ne spec0 c (V0 m c) _ main_v1 (by decide)
  rw [h99, h1]
  rfl

/-- The idealized kernel program's run, read: every weakly fair execution terminates without a fault, the result buffer
    ends at `result`, and every argument array ends as launched. -/
theorem run : θ_run defs (onTc (τ := τ) (main (F := Ideal))) ⟨m, fun _ => 0, ρ⟩ (fun r => ∀ c : Dev nD,
      r.2.mem ((c.tc : Thread nD τ).loc main_v102) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_v102 (Pipeline.mem_restRefs_of main_v102 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 1).trans (((dats m 0 c).arrAt_in 1 rfl _).trans ((A_eq m c 1).trans (V_main_arg4 m c))),
      ((h c).2 main_arg5 (Pipeline.mem_restRefs_of main_arg5 (by decide) (by decide))).trans (W_main_arg5 m (dats m) c),
      ((h c).1 3).trans (((dats m 0 c).arrAt_in 3 rfl _).trans ((A_eq m c 3).trans (V_main_arg6 m c))),
      ((h c).2 main_arg7 (Pipeline.mem_restRefs_of main_arg7 (by decide) (by decide))).trans (W_main_arg7 m (dats m) c)⟩) (run_main m ρ)

end Cert.KernelIdeal.Rows

end
-- ==== Proof.RefSuffix.lean ====
/-
  The reference program's result, read through its last fifteen operations.

  After the input array is formed the reference applies a dense layer, adds the first bias spread over the rows, takes the
  maximum with zero, applies the second dense layer, adds the second bias, and adds every row of the outcome into the
  row of a zero array that the row's first index names. Read over ANY contents W of the buffers before these fifteen
  operations, the result is that sum of the perceptron of W's input array (`tail_value`); none of the fifteen writes the
  input array, the index row or an argument (`tail_keeps_…`). So the program's result is that expression of what the
  whole program leaves in those buffers (`ref_value`), and the whole program leaves each argument as launched.
-/
import proofs.«131313_j38190849196538_1_alg».proof.Proof.RefRun
import proofs.«131313_j38190849196538_1_alg».proof.Proof.LibTwoLayerRows
import proofs.«131313_j38190849196538_1_alg».proof.Proof.LibHostReads

set_option maxRecDepth 65536
set_option maxHeartbeats 40000000

noncomputable section

open Idealize.ShloMosaic Idealize.ShloMosaic.TcCoe Idealize.SL.Sem Idealize.ShloMosaic.StableHlo

namespace Cert.RefSuffix

open Cert.ReferenceIdeal Cert.ReferenceIdeal.Gen Cert.ReferenceIdeal.Value Cert.LibTwoLayerRows

/-- The reference's operations after its input array is formed. -/
abbrev tailOps : List (HloOp τ sig (Elt Ideal)) := List.drop 119 (ops (F := Ideal))

theorem tail_keeps_main_v96 (W : Valuation τ sig (Elt Ideal)) :
    after tailOps W (Proc.devRef .tc main_v96) = W (Proc.devRef .tc main_v96) := by
  simp only [tailOps, ops, List.drop_succ_cons, List.drop_zero]
  after_results3

theorem tail_keeps_main_v32 (W : Valuation τ sig (Elt Ideal)) :
    after tailOps W (Proc.devRef .tc main_v32) = W (Proc.devRef .tc main_v32) := by
  simp only [tailOps, ops, List.drop_succ_cons, List.drop_zero]
  after_results3

theorem tail_keeps_main_arg4 (W : Valuation τ sig (Elt Ideal)) :
    after tailOps W (Proc.devRef .tc main_arg4) = W (Proc.devRef .tc main_arg4) := by
  simp only [tailOps, ops, List.drop_succ_cons, List.drop_zero]
  after_results3

theorem tail_keeps_main_arg5 (W : Valuation τ sig (Elt Ideal)) :
    after tailOps W (Proc.devRef .tc main_arg5) = W (Proc.devRef .tc main_arg5) := by
  simp only [tailOps, ops, List.drop_succ_cons, List.drop_zero]
  after_results3

theorem tail_keeps_main_arg6 (W : Valuation τ sig (Elt Ideal)) :
    after tailOps W (Proc.devRef .tc main_arg6) = W (Proc.devRef .tc main_arg6) := by
  simp only [tailOps, ops, List.drop_succ_cons, List.drop_zero]
  after_results3

theorem tail_keeps_main_arg7 (W : Valuation τ sig (Elt Ideal)) :
    after tailOps W (Proc.devRef .tc main_arg7) = W (Proc.devRef .tc main_arg7) := by
  simp only [tailOps, ops, List.drop_succ_cons, List.drop_zero]
  after_results3

/-- The last fifteen operations over any earlier contents W. -/
theorem tail_value (W : Valuation τ sig (Elt Ideal)) :
    after tailOps W (Proc.devRef .tc main_v108)
      = Host.scatterAdd scatter_S200000x256_S600000x1_S600000x256_1_0_0_1
          (broadcastInDim S200000x256 ![] bcast_S_S200000x256 (constant (F := Ideal) S_ .f32 0x00000000#32))
          (broadcastInDim S600000x1 ![0] bcast_S600000_S600000x1_0 (W (Proc.devRef .tc main_v32)))
          (mlp (M := 600000) (K := 265) (H := 256) (N := 256) (W (Proc.devRef .tc main_v96)) (W (Proc.devRef .tc main_arg4))
            (W (Proc.devRef .tc main_arg5)) (W (Proc.devRef .tc main_arg6)) (W (Proc.devRef .tc main_arg7))) := by
  simp only [tailOps, ops, List.drop_succ_cons, List.drop_zero]
  after_results3
  refine congrArg (Host.scatterAdd _ _ _) ?_
  exact host_mlp dot_S600000x265_S265x256_S600000x256_1_0_0_1_n_n rfl dot_S600000x256_S256x256_S600000x256_1_0_0_1_n_n rfl none none
    (W (Proc.devRef .tc main_v96)) (W (Proc.devRef .tc main_arg4)) (W (Proc.devRef .tc main_arg5)) (W (Proc.devRef .tc main_arg6))
    (W (Proc.devRef .tc main_arg7)) bcast_S256_S1x256_1 bcast_S1x256_S600000x256_0_1 bcast_S_S600000x256 bcast_S256_S1x256_1
    bcast_S1x256_S600000x256_0_1

/-- The whole list is its first 119 operations followed by `tailOps`. -/
theorem after_split (L' : Valuation τ sig (Elt Ideal)) :
    after (ops (F := Ideal)) L' = after tailOps (after (List.take 119 (ops (F := Ideal))) L') := by
  conv_lhs => rw [← List.take_append_drop 119 (ops (F := Ideal))]
  exact after_append _ _ _

/-- The reference program's result buffer, in terms of what the whole program leaves in the input array, the index row
    and the weight and bias arguments. -/
theorem ref_value (L' : Valuation τ sig (Elt Ideal)) :
    after (ops (F := Ideal)) L' (Proc.devRef .tc main_v108)
      = Host.scatterAdd scatter_S200000x256_S600000x1_S600000x256_1_0_0_1
          (broadcastInDim S200000x256 ![] bcast_S_S200000x256 (constant (F := Ideal) S_ .f32 0x00000000#32))
          (broadcastInDim S600000x1 ![0] bcast_S600000_S600000x1_0 (after (ops (F := Ideal)) L' (Proc.devRef .tc main_v32)))
          (mlp (M := 600000) (K := 265) (H := 256) (N := 256) (after (ops (F := Ideal)) L' (Proc.devRef .tc main_v96))
            (after (ops (F := Ideal)) L' (Proc.devRef .tc main_arg4)) (after (ops (F := Ideal)) L' (Proc.devRef .tc main_arg5))
            (after (ops (F := Ideal)) L' (Proc.devRef .tc main_arg6)) (after (ops (F := Ideal)) L' (Proc.devRef .tc main_arg7))) := by
  rw [after_split L']
  generalize after (List.take 119 (ops (F := Ideal))) L' = W
  rw [tail_value W, tail_keeps_main_v96 W, tail_keeps_main_v32 W, tail_keeps_main_arg4 W, tail_keeps_main_arg5 W,
    tail_keeps_main_arg6 W, tail_keeps_main_arg7 W]

/-- No operation of the reference writes argument 4. -/
theorem ref_arg4 (L' : Valuation τ sig (Elt Ideal)) :
    after (ops (F := Ideal)) L' (Proc.devRef .tc main_arg4) = L' (Proc.devRef .tc main_arg4) := by
  after_results3

/-- No operation of the reference writes argument 5. -/
theorem ref_arg5 (L' : Valuation τ sig (Elt Ideal)) :
    after (ops (F := Ideal)) L' (Proc.devRef .tc main_arg5) = L' (Proc.devRef .tc main_arg5) := by
  after_results3

/-- No operation of the reference writes argument 6. -/
theorem ref_arg6 (L' : Valuation τ sig (Elt Ideal)) :
    after (ops (F := Ideal)) L' (Proc.devRef .tc main_arg6) = L' (Proc.devRef .tc main_arg6) := by
  after_results3

/-- No operation of the reference writes argument 7. -/
theorem ref_arg7 (L' : Valuation τ sig (Elt Ideal)) :
    after (ops (F := Ideal)) L' (Proc.devRef .tc main_arg7) = L' (Proc.devRef .tc main_arg7) := by
  after_results3

end Cert.RefSuffix

end
-- ==== Proof.PreludeSame.lean ====
/-
  The two programs compute the same input array and the same index row.

  Before its region the kernel program computes, from the argument arrays, the [600000, 265] input array of the
  perceptron and the [600000] row of first indices; the reference program computes its own copies of both by the same
  host operations applied to the same operands (the reference orders its operations differently, which changes no
  value). Read at those buffers, both programs' operation lists give the same composition of operations of the
  argument arrays, so when the two memories agree on the arguments the buffers agree.
-/
import proofs.«131313_j38190849196538_1_alg».proof.Proof.RefRun
import proofs.«131313_j38190849196538_1_alg».proof.Proof.Gen.KernelIdeal.Launch
import proofs.«131313_j38190849196538_1_alg».proof.Proof.LibHostReads
import Idealize.ShloMosaic.PureOps.Ideal

set_option maxRecDepth 65536
set_option maxHeartbeats 40000000

noncomputable section

open Idealize.ShloMosaic Idealize.ShloMosaic.TcCoe Idealize.SL.Sem Idealize.ShloMosaic.StableHlo

namespace Cert.PreludeSame

/-- The perceptron's input array: the reference's buffer and the kernel program's hold the same array. It is a
    concatenation of two pieces; each piece is the same composition of operations in both programs. -/
theorem input_same (L : Valuation Cert.KernelIdeal.τ Cert.KernelIdeal.sig (Elt Ideal)) (L' : Valuation Cert.ReferenceIdeal.τ Cert.ReferenceIdeal.sig (Elt Ideal))
    (h0 : L' (Proc.devRef .tc Cert.ReferenceIdeal.main_arg0) = L (Proc.devRef .tc Cert.KernelIdeal.main_arg0))
    (h1 : L' (Proc.devRef .tc Cert.ReferenceIdeal.main_arg1) = L (Proc.devRef .tc Cert.KernelIdeal.main_arg1))
    (h2 : L' (Proc.devRef .tc Cert.ReferenceIdeal.main_arg2) = L (Proc.devRef .tc Cert.KernelIdeal.main_arg2))
    (h3 : L' (Proc.devRef .tc Cert.ReferenceIdeal.main_arg3) = L (Proc.devRef .tc Cert.KernelIdeal.main_arg3)) :
    after (Cert.ReferenceIdeal.Value.ops (F := Ideal)) L' (Proc.devRef .tc Cert.ReferenceIdeal.main_v96)
      = after (Cert.KernelIdeal.Gen.hostOps0 (F := Ideal)) L (Proc.devRef .tc Cert.KernelIdeal.main_v96) := by
  after_results3
  refine concat2_congr _ ?_ ?_
  · after_results3
    simp only [h1, h2, h3]
    rfl
  · after_results3
    simp only [h0, h3]
    rfl

/-- The row of first indices: the same slice of the same argument in both programs. -/
theorem index_same (L : Valuation Cert.KernelIdeal.τ Cert.KernelIdeal.sig (Elt Ideal)) (L' : Valuation Cert.ReferenceIdeal.τ Cert.ReferenceIdeal.sig (Elt Ideal))
    (h3 : L' (Proc.devRef .tc Cert.ReferenceIdeal.main_arg3) = L (Proc.devRef .tc Cert.KernelIdeal.main_arg3)) :
    after (Cert.ReferenceIdeal.Value.ops (F := Ideal)) L' (Proc.devRef .tc Cert.ReferenceIdeal.main_v32)
      = after (Cert.KernelIdeal.Gen.hostOps0 (F := Ideal)) L (Proc.devRef .tc Cert.KernelIdeal.main_v1) := by
  after_results3
  simp only [h3]
  rfl

end Cert.PreludeSame

end
-- ==== Proof.Bridge.lean ====
/-
  The two idealized programs return the same array.

  The kernel program returns the scatter-sum, over the first index row, of the perceptron of its input array
  (Proof/KernelTail.lean); the reference returns the same expression of its own input array, index row, weights and
  biases (Proof/RefSuffix.lean). The input arrays and index rows agree (Proof/PreludeSame.lean), and the weights and
  biases are arguments no operation writes. So from memories that agree on the arguments the results are equal. No law
  of arithmetic is used: both sides are one tree of sums, products and maxima.
-/
import proofs.«131313_j38190849196538_1_alg».proof.Proof.KernelTail
import proofs.«131313_j38190849196538_1_alg».proof.Proof.RefSuffix
import proofs.«131313_j38190849196538_1_alg».proof.Proof.PreludeSame

noncomputable section

open Idealize.ShloMosaic Idealize.ShloMosaic.TcCoe Idealize.SL.Sem Idealize.ShloMosaic.StableHlo

namespace Cert.Bridge

/-- The reference's result from a memory m' is the kernel program's result from a memory m that agrees with m' on the
    eight arguments. -/
theorem value_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    after (Cert.ReferenceIdeal.Value.ops (F := Ideal)) (launchContents m' c) (Proc.devRef .tc Cert.ReferenceIdeal.main_v108)
      = Cert.KernelIdeal.Rows.result m c := by
  obtain ⟨g0, g1, g2, g3, g4, g5, g6, g7⟩ := hag
  rw [Cert.RefSuffix.ref_value,
    Cert.PreludeSame.input_same (fun b => m (c, b)) (launchContents m' c) g0 g1 g2 g3,
    Cert.PreludeSame.index_same (fun b => m (c, b)) (launchContents m' c) g3,
    Cert.RefSuffix.ref_arg4, Cert.RefSuffix.ref_arg5, Cert.RefSuffix.ref_arg6, Cert.RefSuffix.ref_arg7]
  show _ = Host.scatterAdd _ _ _ _
  unfold Cert.KernelIdeal.Rows.rowsOut
  rw [show launchContents m' c (Proc.devRef .tc Cert.ReferenceIdeal.main_arg4) = m ((c.tc : Thread Cert.KernelIdeal.nD Cert.KernelIdeal.τ).loc Cert.KernelIdeal.main_arg4) from g4,
    show launchContents m' c (Proc.devRef .tc Cert.ReferenceIdeal.main_arg5) = m ((c.tc : Thread Cert.KernelIdeal.nD Cert.KernelIdeal.τ).loc Cert.KernelIdeal.main_arg5) from g5,
    show launchContents m' c (Proc.devRef .tc Cert.ReferenceIdeal.main_arg6) = m ((c.tc : Thread Cert.KernelIdeal.nD Cert.KernelIdeal.τ).loc Cert.KernelIdeal.main_arg6) from g6,
    show launchContents m' c (Proc.devRef .tc Cert.ReferenceIdeal.main_arg7) = m ((c.tc : Thread Cert.KernelIdeal.nD Cert.KernelIdeal.τ).loc Cert.KernelIdeal.main_arg7) from g7]
  rfl

end Cert.Bridge

end
-- ==== Proof.lean ====
/-
  The certificate of the two-layer perceptron kernel against its reference.

  The kernel gathers per-edge geometric and feature differences on the host into a [600000, 265] array, pushes its
  rows through a perceptron max(x W1 + b1, 0) W2 + b2 in a pipelined region of 150 blocks of 4000 rows, and adds the
  rows of the outcome into the rows of a zero array named by each edge's first index. The reference computes the same
  array with two whole-array products. On the extended reals a change of float format is the identity and the two
  products are the same sums, term for term, so the two results are equal for every input; the precondition is not used.

  The three frame claims: each of the kernel programs runs to its end without a fault and leaves its arguments as
  launched (Proof/FrameBits.lean at the word level, Proof/FrameIdeal.lean on the extended reals), and so does the
  reference (its operations run as one list, none of which writes an argument). The idealization rewrote nothing, so
  the fourth claim is trivial. The fifth is Proof/Bridge.lean.
-/
import proofs.«131313_j38190849196538_1_alg».proof.Defs
import proofs.«131313_j38190849196538_1_alg».proof.Proof.Gen.Kernel
import proofs.«131313_j38190849196538_1_alg».proof.Proof.Gen.KernelIdeal
import proofs.«131313_j38190849196538_1_alg».proof.Proof.Gen.ReferenceIdeal
import proofs.«131313_j38190849196538_1_alg».proof.Proof.Gen.Pre_finite_inputs
import proofs.«131313_j38190849196538_1_alg».proof.Proof.FrameBits
import proofs.«131313_j38190849196538_1_alg».proof.Proof.Bridge

noncomputable section

namespace Cert.Proof

open Idealize.ShloMosaic Idealize.SL.Sem

theorem frame_kernel : Cert.frame_Kernel := fun m ρ _ => Cert.Kernel.Frm.frame m ρ

theorem frame_kernel_ideal : Cert.frame_KernelIdeal := fun m ρ _ => Cert.KernelIdeal.Frm.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

theorem algebraic : Cert.algebraic_KernelIdeal_ReferenceIdeal := by
  intro m ρ m' ρ' _ hagree
  refine ⟨fun c => Cert.KernelIdeal.Rows.result m c, Cert.KernelIdeal.Rows.run m ρ, ?_⟩
  refine (θ_run Cert.ReferenceIdeal.defs _ _).mono (fun _ h c => ⟨(h c).1.trans ?_, (h c).2⟩)
    (Cert.ReferenceIdeal.Value.run (F := Ideal) m' ρ')
  exact Cert.Bridge.value_eq m m' c (hagree c)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
